-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x224 : Shape := ⟨2, ![100000, 224]⟩
abbrev S2x1600000 : Shape := ⟨2, ![2, 1600000]⟩
abbrev S128x256 : Shape := ⟨2, ![128, 256]⟩
abbrev S256x64 : Shape := ⟨2, ![256, 64]⟩
abbrev S256x512 : Shape := ⟨2, ![256, 512]⟩
abbrev S_ : Shape := ⟨0, ![]⟩

class Facts : Prop where
  bcast_S_S100000x224 : S_.BroadcastsInDim S100000x224 (![] : Fin 0 → Fin S100000x224.rank)
  reducesTo_S100000x224_S_d0_1 : S100000x224.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256x64 : S_.BroadcastsInDim S256x64 (![] : Fin 0 → Fin S256x64.rank)
  reducesTo_S256x64_S_d0_1 : S256x64.ReducesTo [0, 1] S_
  bcast_S_S256x512 : S_.BroadcastsInDim S256x512 (![] : Fin 0 → Fin S256x512.rank)
  reducesTo_S256x512_S_d0_1 : S256x512.ReducesTo [0, 1] S_

variable [Facts]

def fn_part1 {F : FTy → Type} [FloatOps F] (main_arg5 : FVec F S256x512 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x512 .f32 := Host.absf main_arg5
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  main_v23

def fn {F : FTy → Type} [FloatOps F] (main_arg0 : FVec F S100000x224 .f32) (main_arg1 : IVec S2x1600000 32) (main_arg2 : FVec F S128x256 .f32) (main_arg3 : FVec F S256x64 .f32) (main_arg4 : FVec F S128x256 .f32) (main_arg5 : FVec F S256x512 .f32) : IVec S_ 1 :=
  let main_v0 : FVec F S100000x224 .f32 := Host.absf main_arg0
  let main_cst : FVec F S_ .f32 := constant S_ .f32 0x7F800000#32
  let main_v1 : FVec F S100000x224 .f32 := broadcastInDim S100000x224 ![] bcast_S_S100000x224 main_cst
  let main_v2 : IVec S100000x224 1 := cmpf .olt main_v0 main_v1
  let main_c : IVec S_ 1 := constantI S_ 1 1#1
  let main_v3 : IVec S_ 1 := (fun x v => Host.reduce IntOp.andi x v reducesTo_S100000x224_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256x64 .f32 := Host.absf main_arg3
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_v13 main_v16
-- ==== Kernel.lean ====
abbrev S100000x224 : Shape := ⟨2, ![100000, 224]⟩
abbrev S2x1600000 : Shape := ⟨2, ![2, 1600000]⟩
abbrev S128x256 : Shape := ⟨2, ![128, 256]⟩
abbrev S256x64 : Shape := ⟨2, ![256, 64]⟩
abbrev S256x512 : Shape := ⟨2, ![256, 512]⟩
abbrev S_ : Shape := ⟨0, ![]⟩
abbrev S100000 : Shape := ⟨1, ![100000]⟩
abbrev S1x1600000 : Shape := ⟨2, ![1, 1600000]⟩
abbrev S1600000 : Shape := ⟨1, ![1600000]⟩
abbrev S1600000x1 : Shape := ⟨2, ![1600000, 1]⟩
abbrev S100000x1 : Shape := ⟨2, ![100000, 1]⟩
abbrev S100000x112 : Shape := ⟨2, ![100000, 112]⟩
abbrev S2000x224 : Shape := ⟨2, ![2000, 224]⟩
abbrev S2000x1 : Shape := ⟨2, ![2000, 1]⟩
abbrev S2000x112 : Shape := ⟨2, ![2000, 112]⟩
abbrev S2000x128 : Shape := ⟨2, ![2000, 128]⟩
abbrev S2000x96 : Shape := ⟨2, ![2000, 96]⟩
abbrev S2000x32x3 : Shape := ⟨3, ![2000, 32, 3]⟩
abbrev S2000x256 : Shape := ⟨2, ![2000, 256]⟩
abbrev S2000x64 : Shape := ⟨2, ![2000, 64]⟩
abbrev S2000x512 : Shape := ⟨2, ![2000, 512]⟩
abbrev S2000x32x16 : Shape := ⟨3, ![2000, 32, 16]⟩
abbrev S2000x16x3 : Shape := ⟨3, ![2000, 16, 3]⟩
abbrev S2000x48 : Shape := ⟨2, ![2000, 48]⟩

abbrev nBuf : Space → Nat
  | .hbm => 24
  | .vmem => 10
  | .smem => 0
  | _ => 0

abbrev bufTy : (tb : Table) → Fin (tcTables nBuf tb) → BufTy
  | .hbm, ⟨0, _⟩ => ⟨S100000x224, .f32⟩
  | .hbm, ⟨1, _⟩ => ⟨S2x1600000, .i32⟩
  | .hbm, ⟨2, _⟩ => ⟨S128x256, .f32⟩
  | .hbm, ⟨3, _⟩ => ⟨S256x64, .f32⟩
  | .hbm, ⟨4, _⟩ => ⟨S128x256, .f32⟩
  | .hbm, ⟨5, _⟩ => ⟨S256x512, .f32⟩
  | .hbm, ⟨6, _⟩ => ⟨S_, .i1⟩
  | .hbm, ⟨7, _⟩ => ⟨S100000, .i1⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S_, .i1⟩
  | .hbm, ⟨19, _⟩ => ⟨S1600000, .i1⟩
  | .hbm, ⟨20, _⟩ => ⟨S100000, .i1⟩
  | .hbm, ⟨21, _⟩ => ⟨S100000, .f32⟩
  | .hbm, ⟨22, _⟩ => ⟨S100000x1, .f32⟩
  | .hbm, ⟨23, _⟩ => ⟨S100000x112, .f32⟩
  | .local _ .vmem, ⟨0, _⟩ => ⟨S2000x224, .f32⟩
  | .local _ .vmem, ⟨1, _⟩ => ⟨S2000x224, .f32⟩
  | .local _ .vmem, ⟨2, _⟩ => ⟨S2000x1, .f32⟩
  | .local _ .vmem, ⟨3, _⟩ => ⟨S2000x1, .f32⟩
  | .local _ .vmem, ⟨4, _⟩ => ⟨S128x256, .f32⟩
  | .local _ .vmem, ⟨5, _⟩ => ⟨S256x64, .f32⟩
  | .local _ .vmem, ⟨6, _⟩ => ⟨S128x256, .f32⟩
  | .local _ .vmem, ⟨7, _⟩ => ⟨S256x512, .f32⟩
  | .local _ .vmem, ⟨8, _⟩ => ⟨S2000x112, .f32⟩
  | .local _ .vmem, ⟨9, _⟩ => ⟨S2000x112, .f32⟩
  | _, _ => ⟨S100000x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x112 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S100000 : S_.BroadcastsInDim S100000 (![] : Fin 0 → Fin S100000.rank)
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S100000_S100000x1 : S100000.ShapeCasts S100000x1
  inb_S2000x224_S2000x224_0_0 : ∀ a, (![0, 0] : Fin 2 → Nat) a + S2000x224.size a ≤ S2000x224.size a
  h_S2000x224 : 0 < S2000x224.numel
  slices_S2000x224_o0_0_S2000x128 : S2000x224.Slices ![0, 0] S2000x128
  slices_S2000x224_o0_128_S2000x96 : S2000x224.Slices ![0, 128] S2000x96
  shapeCasts_S2000x96_S2000x32x3 : S2000x96.ShapeCasts S2000x32x3
  inb_S128x256_S128x256_0_0 : ∀ a, (![0, 0] : Fin 2 → Nat) a + S128x256.size a ≤ S128x256.size a
  h_S128x256 : 0 < S128x256.numel
  inb_S256x64_S256x64_0_0 : ∀ a, (![0, 0] : Fin 2 → Nat) a + S256x64.size a ≤ S256x64.size a
  h_S256x64 : 0 < S256x64.numel
  inb_S256x512_S256x512_0_0 : ∀ a, (![0, 0] : Fin 2 → Nat) a + S256x512.size a ≤ S256x512.size a
  h_S256x512 : 0 < S256x512.numel
  shapeCasts_S2000x512_S2000x32x16 : S2000x512.ShapeCasts S2000x32x16
  shapeCasts_S2000x16x3_S2000x48 : S2000x16x3.ShapeCasts S2000x48
  concatenates_S2000x64_S2000x48_S2000x112_d1 : Shape.Concatenates [S2000x64, S2000x48] S2000x112 1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x112 : S2000x1.Broadcasts S2000x112
  inb_S2000x112_S2000x112_0_0 : ∀ a, (![0, 0] : Fin 2 → Nat) a + S2000x112.size a ≤ S2000x112.size a
  h_S2000x112 : 0 < S2000x112.numel
  scatter_S100000_S1600000x1_S1600000_n_0_0_1_wf : ScatterDims.WF S100000 S1600000x1 S1600000 [] [0] [0] 1
  dot_S2000x128_S128x256_S2000x256_1_0_0_1_n_n_wf : DotDims.WF S2000x128 S128x256 S2000x256 [1] [0] [0] [1] [] []
  dot_S2000x256_S256x64_S2000x64_1_0_0_1_n_n_wf : DotDims.WF S2000x256 S256x64 S2000x64 [1] [0] [0] [1] [] []
  dot_S2000x256_S256x512_S2000x512_1_0_0_1_n_n_wf : DotDims.WF S2000x256 S256x512 S2000x512 [1] [0] [0] [1] [] []
  dot_S2000x32x16_S2000x32x3_S2000x16x3_1_1_2_2_0_0_wf : DotDims.WF S2000x32x16 S2000x32x3 S2000x16x3 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x224.size a ≤ S100000x224.size a
  hwx0_0 : ∀ i : grid0.Coords, EltTy.bits .f32 = 32 ∨ (Rect.block (s := S100000x224) S2000x224.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .f32 = 32 ∨ (Rect.block (s := S256x64) S256x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x512.size a ≤ S256x512.size a
  hwx0_5 : ∀ i : grid0.Coords, EltTy.bits .f32 = 32 ∨ (Rect.block (s := S256x512) S256x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x112.size a ≤ S100000x112.size a
  hwx0_6 : ∀ i : grid0.Coords, EltTy.bits .f32 = 32 ∨ (Rect.block (s := S100000x112) S2000x112.size (cc0_transform_6 i) (hinb0_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf
def dot_S2000x32x16_S2000x32x3_S2000x16x3_1_1_2_2_0_0 : DotDims S2000x32x16 S2000x32x3 S2000x16x3 where
  lhsContracting := [1]
  rhsContracting := [1]
  lhsNonContracting := [2]
  rhsNonContracting := [2]
  lhsBatch := [0]
  rhsBatch := [0]
  wf := dot_S2000x32x16_S2000x32x3_S2000x16x3_1_1_2_2_0_0_wf

abbrev win0_0 : Pipeline.Window sig grid0 :=
  Pipeline.Window.ofSpec (Memref.whole main_arg0) S2000x224.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S2000x112.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x224 : Shape := ⟨2, ![100000, 224]⟩
abbrev S2x1600000 : Shape := ⟨2, ![2, 1600000]⟩
abbrev S128x256 : Shape := ⟨2, ![128, 256]⟩
abbrev S256x64 : Shape := ⟨2, ![256, 64]⟩
abbrev S256x512 : Shape := ⟨2, ![256, 512]⟩
abbrev S_ : Shape := ⟨0, ![]⟩
abbrev S100000 : Shape := ⟨1, ![100000]⟩
abbrev S1x1600000 : Shape := ⟨2, ![1, 1600000]⟩
abbrev S1600000 : Shape := ⟨1, ![1600000]⟩
abbrev S1600000x1 : Shape := ⟨2, ![1600000, 1]⟩
abbrev S100000x128 : Shape := ⟨2, ![100000, 128]⟩
abbrev S100000x256 : Shape := ⟨2, ![100000, 256]⟩
abbrev S100000x64 : Shape := ⟨2, ![100000, 64]⟩
abbrev S100000x96 : Shape := ⟨2, ![100000, 96]⟩
abbrev S100000x32x3 : Shape := ⟨3, ![100000, 32, 3]⟩
abbrev S100000x512 : Shape := ⟨2, ![100000, 512]⟩
abbrev S100000x32x16 : Shape := ⟨3, ![100000, 32, 16]⟩
abbrev S100000x16x3 : Shape := ⟨3, ![100000, 16, 3]⟩
abbrev S100000x48 : Shape := ⟨2, ![100000, 48]⟩
abbrev S100000x112 : Shape := ⟨2, ![100000, 112]⟩
abbrev S100000x1 : Shape := ⟨2, ![100000, 1]⟩

abbrev nBuf : Space → Nat
  | .hbm => 69
  | .vmem => 0
  | .smem => 0
  | _ => 0

abbrev bufTy : (tb : Table) → Fin (tcTables nBuf tb) → BufTy
  | .hbm, ⟨0, _⟩ => ⟨S100000x224, .f32⟩
  | .hbm, ⟨1, _⟩ => ⟨S2x1600000, .i32⟩
  | .hbm, ⟨2, _⟩ => ⟨S128x256, .f32⟩
  | .hbm, ⟨3, _⟩ => ⟨S256x64, .f32⟩
  | .hbm, ⟨4, _⟩ => ⟨S128x256, .f32⟩
  | .hbm, ⟨5, _⟩ => ⟨S256x512, .f32⟩
  | .hbm, ⟨6, _⟩ => ⟨S_, .i1⟩
  | .hbm, ⟨7, _⟩ => ⟨S100000, .i1⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S_, .i1⟩
  | .hbm, ⟨19, _⟩ => ⟨S1600000, .i1⟩
  | .hbm, ⟨20, _⟩ => ⟨S100000, .i1⟩
  | .hbm, ⟨21, _⟩ => ⟨S100000x128, .f32⟩
  | .hbm, ⟨22, _⟩ => ⟨S100000x256, .f32⟩
  | .hbm, ⟨23, _⟩ => ⟨S_, .f32⟩
  | .hbm, ⟨24, _⟩ => ⟨S100000x256, .f32⟩
  | .hbm, ⟨25, _⟩ => ⟨S100000x256, .f32⟩
  | .hbm, ⟨26, _⟩ => ⟨S100000x256, .f32⟩
  | .hbm, ⟨27, _⟩ => ⟨S100000x256, .f32⟩
  | .hbm, ⟨28, _⟩ => ⟨S_, .f32⟩
  | .hbm, ⟨29, _⟩ => ⟨S100000x256, .f32⟩
  | .hbm, ⟨30, _⟩ => ⟨S100000x256, .f32⟩
  | .hbm, ⟨31, _⟩ => ⟨S_, .f32⟩
  | .hbm, ⟨32, _⟩ => ⟨S100000x256, .f32⟩
  | .hbm, ⟨33, _⟩ => ⟨S100000x256, .f32⟩
  | .hbm, ⟨34, _⟩ => ⟨S100000x256, .f32⟩
  | .hbm, ⟨35, _⟩ => ⟨S100000x64, .f32⟩
  | .hbm, ⟨36, _⟩ => ⟨S_, .f32⟩
  | .hbm, ⟨37, _⟩ => ⟨S100000x64, .f32⟩
  | .hbm, ⟨38, _⟩ => ⟨S100000x64, .f32⟩
  | .hbm, ⟨39, _⟩ => ⟨S100000x96, .f32⟩
  | .hbm, ⟨40, _⟩ => ⟨S100000x32x3, .f32⟩
  | .hbm, ⟨41, _⟩ => ⟨S100000x256, .f32⟩
  | .hbm, ⟨42, _⟩ => ⟨S_, .f32⟩
  | .hbm, ⟨43, _⟩ => ⟨S100000x256, .f32⟩
  | .hbm, ⟨44, _⟩ => ⟨S100000x256, .f32⟩
  | .hbm, ⟨45, _⟩ => ⟨S100000x256, .f32⟩
  | .hbm, ⟨46, _⟩ => ⟨S100000x256, .f32⟩
  | .hbm, ⟨47, _⟩ => ⟨S_, .f32⟩
  | .hbm, ⟨48, _⟩ => ⟨S100000x256, .f32⟩
  | .hbm, ⟨49, _⟩ => ⟨S100000x256, .f32⟩
  | .hbm, ⟨50, _⟩ => ⟨S_, .f32⟩
  | .hbm, ⟨51, _⟩ => ⟨S100000x256, .f32⟩
  | .hbm, ⟨52, _⟩ => ⟨S100000x256, .f32⟩
  | .hbm, ⟨53, _⟩ => ⟨S100000x256, .f32⟩
  | .hbm, ⟨54, _⟩ => ⟨S100000x512, .f32⟩
  | .hbm, ⟨55, _⟩ => ⟨S_, .f32⟩
  | .hbm, ⟨56, _⟩ => ⟨S100000x512, .f32⟩
  | .hbm, ⟨57, _⟩ => ⟨S100000x512, .f32⟩
  | .hbm, ⟨58, _⟩ => ⟨S100000x32x16, .f32⟩
  | .hbm, ⟨59, _⟩ => ⟨S100000x16x3, .f32⟩
  | .hbm, ⟨60, _⟩ => ⟨S_, .f32⟩
  | .hbm, ⟨61, _⟩ => ⟨S100000x16x3, .f32⟩
  | .hbm, ⟨62, _⟩ => ⟨S100000x16x3, .f32⟩
  | .hbm, ⟨63, _⟩ => ⟨S100000x48, .f32⟩
  | .hbm, ⟨64, _⟩ => ⟨S100000x112, .f32⟩
  | .hbm, ⟨65, _⟩ => ⟨S100000x1, .i1⟩
  | .hbm, ⟨66, _⟩ => ⟨S100000x1, .f32⟩
  | .hbm, ⟨67, _⟩ => ⟨S100000x112, .f32⟩
  | .hbm, ⟨68, _⟩ => ⟨S100000x112, .f32⟩
  | _, _ => ⟨S100000x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v15 : Ref sig .tc := ⟨.hbm, 34, rfl⟩
abbrev main_v16 : Ref sig .tc := ⟨.hbm, 35, rfl⟩
abbrev main_cst_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_4 : Ref sig .tc := ⟨.hbm, 42, rfl⟩
abbrev main_v22 : Ref sig .tc := ⟨.hbm, 43, rfl⟩
abbrev main_v23 : Ref sig .tc := ⟨.hbm, 44, rfl⟩
abbrev main_call1_v0 : Ref sig .tc := ⟨.hbm, 45, rfl⟩
abbrev main_call1_v1 : Ref sig .tc := ⟨.hbm, 46, rfl⟩
abbrev main_call1_cst : Ref sig .tc := ⟨.hbm, 47, rfl⟩
abbrev main_call1_v2 : Ref sig .tc := ⟨.hbm, 48, rfl⟩
abbrev main_call1_v3 : Ref sig .tc := ⟨.hbm, 49, rfl⟩
abbrev main_call1_cst_0 : Ref sig .tc := ⟨.hbm, 50, rfl⟩
abbrev main_call1_v4 : Ref sig .tc := ⟨.hbm, 51, rfl⟩
abbrev main_call1_v5 : Ref sig .tc := ⟨.hbm, 52, rfl⟩
abbrev main_v24 : Ref sig .tc := ⟨.hbm, 53, rfl⟩
abbrev main_v25 : Ref sig .tc := ⟨.hbm, 54, rfl⟩
abbrev main_cst_5 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_cst_6 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S100000x224_S100000x128_0_0 : S100000x224.Slices ![0, 0] S100000x128
  bcast_S_S100000x256 : S_.BroadcastsInDim S100000x256 (![] : Fin 0 → Fin S100000x256.rank)
  bcast_S_S100000x64 : S_.BroadcastsInDim S100000x64 (![] : Fin 0 → Fin S100000x64.rank)
  slices_S100000x224_S100000x96_0_128 : S100000x224.Slices ![0, 128] S100000x96
  shapeCasts_S100000x96_S100000x32x3 : S100000x96.ShapeCasts S100000x32x3
  bcast_S_S100000x512 : S_.BroadcastsInDim S100000x512 (![] : Fin 0 → Fin S100000x512.rank)
  shapeCasts_S100000x512_S100000x32x16 : S100000x512.ShapeCasts S100000x32x16
  bcast_S_S100000x16x3 : S_.BroadcastsInDim S100000x16x3 (![] : Fin 0 → Fin S100000x16x3.rank)
  shapeCasts_S100000x16x3_S100000x48 : S100000x16x3.ShapeCasts S100000x48
  concatenates_S100000x64_S100000x48_S100000x112_d1 : Shape.Concatenates [S100000x64, S100000x48] S100000x112 1
  bcast_S100000_S100000x1_0 : S100000.BroadcastsInDim S100000x1 (![0] : Fin 1 → Fin S100000x1.rank)
  bcast_S100000x1_S100000x112_0_1 : S100000x1.BroadcastsInDim S100000x112 (![0, 1] : Fin 2 → Fin S100000x112.rank)
  scatter_S100000_S1600000x1_S1600000_n_0_0_1_wf : ScatterDims.WF S100000 S1600000x1 S1600000 [] [0] [0] 1
  dot_S100000x128_S128x256_S100000x256_1_0_0_1_n_n_wf : DotDims.WF S100000x128 S128x256 S100000x256 [1] [0] [0] [1] [] []
  dot_S100000x256_S256x64_S100000x64_1_0_0_1_n_n_wf : DotDims.WF S100000x256 S256x64 S100000x64 [1] [0] [0] [1] [] []
  dot_S100000x256_S256x512_S100000x512_1_0_0_1_n_n_wf : DotDims.WF S100000x256 S256x512 S100000x512 [1] [0] [0] [1] [] []
  dot_S100000x32x16_S100000x32x3_S100000x16x3_1_1_2_2_0_0_wf : DotDims.WF S100000x32x16 S100000x32x3 S100000x16x3 [1] [1] [2] [2] [0] [0]

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def dot_S100000x256_S256x512_S100000x512_1_0_0_1_n_n : DotDims S100000x256 S256x512 S100000x512 where
  lhsContracting := [1]
  rhsContracting := [0]
  lhsNonContracting := [0]
  rhsNonContracting := [1]
  lhsBatch := []
  rhsBatch := []
  wf := dot_S100000x256_S256x512_S100000x512_1_0_0_1_n_n_wf
def dot_S100000x32x16_S100000x32x3_S100000x16x3_1_1_2_2_0_0 : DotDims S100000x32x16 S100000x32x3 S100000x16x3 where
  lhsContracting := [1]
  rhsContracting := [1]
  lhsNonContracting := [2]
  rhsNonContracting := [2]
  lhsBatch := [0]
  rhsBatch := [0]
  wf := dot_S100000x32x16_S100000x32x3_S100000x16x3_1_1_2_2_0_0_wf

class Facts : Prop extends Facts₀ where

variable [Facts]
-- ==== Proof.NodeReadout.lean ====
/-
  The function both programs compute, node by node, on the extended reals.

  A node carries 224 features: 128 scalars `s` and 32 three-vectors `v i` (feature `128 + 3 i + μ` is component `μ` of
  vector `i`). Two fan-in-normalised two-layer perceptrons with the SiLU nonlinearity `z ↦ z · 1/(1 + e^(-z))` read the
  scalars: the invariant head gives 64 output scalars, the weight head gives a 32 × 16 matrix `w` (entry `(i, o)` is
  output channel `16 i + o`). The 16 output three-vectors are the contraction `∑ i, w i o · v i μ`, scaled. The 112
  outputs — 64 scalars, then 16 vectors component by component, output `64 + 3 o + μ` — are multiplied by the
  node's activity `a` (1 if some edge leaves the node, else 0).

  The three scales are the single-precision words both programs carry for 1/√128, 1/√256 and 1/√32; the same word
  stands on both sides, so its value is never needed.
-/
import Idealize.ShloMosaic.PureOps.Ideal
import Idealize.ShloMosaic.Lib.ValueIdx

noncomputable section

open scoped BigOperators

namespace Cert.NodeReadout

open Idealize.ShloMosaic Idealize.ShloMosaic.ValueIdx

/-- The word both programs carry for 1/√128 (fan-in of the first layers). -/
abbrev cIn : EReal := Ideal.ofBits .f32 0x3DB504F3#32
/-- The word both programs carry for 1/√256 = 1/16 (fan-in of the second layers). -/
abbrev cHid : EReal := Ideal.ofBits .f32 0x3D800000#32
/-- The word both programs carry for 1/√32 (the contraction's multiplicity). -/
abbrev cMul : EReal := Ideal.ofBits .f32 0x3E3504F3#32

/-- SiLU on the extended reals: `z · 1/(1 + e^(-z))`. -/
def silu (z : EReal) : EReal := z * Ideal.logistic z

/-- Hidden unit `j` of a perceptron on the scalars `s`: `silu ((∑ k, s k · W k j) · 1/√128)`. -/
def hidden (s : Fin 128 → EReal) (W : (⟨2, ![128, 256]⟩ : Shape).Idx → EReal) (j : Fin 256) : EReal :=
  silu ((∑ k : Fin 128, s k * W (ix2 k j)) * cIn)

/-- Output channel `o` of a perceptron with `O` outputs: `(∑ j, hidden j · W₂ j o) · 1/16`. -/
def perceptron {O : Nat} (s : Fin 128 → EReal) (W₁ : (⟨2, ![128, 256]⟩ : Shape).Idx → EReal)
    (W₂ : (⟨2, ![256, O]⟩ : Shape).Idx → EReal) (o : Fin O) : EReal :=
  (∑ j : Fin 256, hidden s W₁ j * W₂ (ix2 j o)) * cHid

/-- A node's 128 scalars among its 224 features. -/
def scalars (x : Fin 224 → EReal) (k : Fin 128) : EReal := x ⟨k.val, by have := k.isLt; omega⟩

/-- Component `μ` of a node's input vector `i`: feature `128 + 3 i + μ`. -/
def vec (x : Fin 224 → EReal) (i : Fin 32) (μ : Fin 3) : EReal :=
  x ⟨128 + (i.val * 3 + μ.val), by have := i.isLt; have := μ.isLt; omega⟩

/-- Component `μ` of output vector `o`: `(∑ i, w i o · v i μ) · 1/√32`, the weight `w i o` channel `16 i + o` of the weight head. -/
def contraction (x : Fin 224 → EReal) (W₁ : (⟨2, ![128, 256]⟩ : Shape).Idx → EReal)
    (W₂ : (⟨2, ![256, 512]⟩ : Shape).Idx → EReal) (o : Fin 16) (μ : Fin 3) : EReal :=
  (∑ i : Fin 32, perceptron (scalars x) W₁ W₂ ⟨i.val * 16 + o.val, by have := i.isLt; have := o.isLt; omega⟩ * vec x i μ) * cMul

/-- Output `c` of a node with features `x` and activity `a`. -/
def node (x : Fin 224 → EReal) (a : EReal)
    (iw₁ : (⟨2, ![128, 256]⟩ : Shape).Idx → EReal) (iw₂ : (⟨2, ![256, 64]⟩ : Shape).Idx → EReal)
    (ww₁ : (⟨2, ![128, 256]⟩ : Shape).Idx → EReal) (ww₂ : (⟨2, ![256, 512]⟩ : Shape).Idx → EReal) (c : Fin 112) : EReal :=
  (if h : c.val < 64 then perceptron (scalars x) iw₁ iw₂ ⟨c.val, h⟩
   else contraction x ww₁ ww₂ ⟨(c.val - 64) / 3, by have := c.isLt; omega⟩ ⟨(c.val - 64) % 3, Nat.mod_lt _ (by decide)⟩) * a

/-- An output among the 64 scalars. -/
theorem node_scalar (x : Fin 224 → EReal) (a : EReal) (iw₁ iw₂ ww₁ ww₂) (o : Fin 64) :
    node x a iw₁ iw₂ ww₁ ww₂ ⟨o.val, by have := o.isLt; omega⟩ = perceptron (scalars x) iw₁ iw₂ o * a := by
  unfold node
  rw [dif_pos (show (⟨o.val, _⟩ : Fin 112).val < 64 from o.isLt)]

/-- An output among the 16 vectors: output `64 + 3 o + μ`. -/
theorem node_vector (x : Fin 224 → EReal) (a : EReal) (iw₁ iw₂ ww₁ ww₂) (o : Fin 16) (μ : Fin 3) :
    node x a iw₁ iw₂ ww₁ ww₂ ⟨64 + (o.val * 3 + μ.val), by have := o.isLt; have := μ.isLt; omega⟩
      = contraction x ww₁ ww₂ o μ * a := by
  unfold node
  have ho := o.isLt; have hμ := μ.isLt
  rw [dif_neg (show ¬(⟨64 + (o.val * 3 + μ.val), _⟩ : Fin 112).val < 64 from by show ¬64 + (o.val * 3 + μ.val) < 64; omega)]
  congr 2
  · exact Fin.ext (by show (64 + (o.val * 3 + μ.val) - 64) / 3 = o.val; omega)
  · exact Fin.ext (by show (64 + (o.val * 3 + μ.val) - 64) % 3 = μ.val; omega)

/-- Every output is one of the two kinds. -/
theorem output_cases (c : Fin 112) :
    (∃ o : Fin 64, c = ⟨o.val, by have := o.isLt; omega⟩)
    ∨ (∃ (o : Fin 16) (μ : Fin 3), c = ⟨64 + (o.val * 3 + μ.val), by have := o.isLt; have := μ.isLt; omega⟩) := by
  have hc := c.isLt
  by_cases h : c.val < 64
  · exact Or.inl ⟨⟨c.val, h⟩, rfl⟩
  · exact Or.inr ⟨⟨(c.val - 64) / 3, by omega⟩, ⟨(c.val - 64) % 3, Nat.mod_lt _ (by decide)⟩, Fin.ext (by show c.val = 64 + ((c.val - 64) / 3 * 3 + (c.val - 64) % 3); omega)⟩

/-- The whole result: row `n` is the node function of row `n` of the features and of the activity of node `n`. -/
def result (feat : (⟨2, ![100000, 224]⟩ : Shape).Idx → EReal) (act : Fin 100000 → EReal)
    (iw₁ : (⟨2, ![128, 256]⟩ : Shape).Idx → EReal) (iw₂ : (⟨2, ![256, 64]⟩ : Shape).Idx → EReal)
    (ww₁ : (⟨2, ![128, 256]⟩ : Shape).Idx → EReal) (ww₂ : (⟨2, ![256, 512]⟩ : Shape).Idx → EReal) :
    (⟨2, ![100000, 112]⟩ : Shape).Idx → EReal :=
  fun i => node (fun k => feat (ix2 (⟨(i 0).val, idx2_lt0 i⟩ : Fin 100000) k)) (act ⟨(i 0).val, idx2_lt0 i⟩) iw₁ iw₂ ww₁ ww₂
    ⟨(i 1).val, idx2_lt1 i⟩

theorem result_apply (feat act iw₁ iw₂ ww₁ ww₂) (n : Fin 100000) (c : Fin 112) :
    result feat act iw₁ iw₂ ww₁ ww₂ (ix2 n c) = node (fun k => feat (ix2 n k)) (act n) iw₁ iw₂ ww₁ ww₂ c := rfl

end Cert.NodeReadout

end
-- ==== Proof.KernelNode.lean ====
/-
  The block the kernel's body stores, read one entry at a time.

  The body takes a tile of 2000 nodes: their 224 features, their activity column and the four weight matrices. It cuts
  the features into 128 scalars and 96 further columns (32 three-vectors), runs the two perceptrons on the scalars as
  matrix products followed by a scaling and SiLU, reshapes the weight head's 512 outputs into a 32 × 16 matrix per
  node, contracts it with the node's 32 three-vectors, scales, flattens the 16 result vectors to 48 columns, joins
  them after the invariant head's 64 columns and multiplies by the activity spread over the 112 columns.

  On the extended reals every one of these steps is exact, so entry `(r, c)` of the result is a closed expression in
  row `r` alone: a matrix product into a zero accumulator is the finite sum over its one contracted axis; a slice, a
  reshape, a join and a spread each read one entry of their operand, found by row-major arithmetic; the scalings and
  SiLU act entry by entry. Chained, these say the entry is output `c` of `NodeReadout.node` on row `r`
  (`payload_apply`), which is all the rest of the argument uses of the body.
-/
import proofs.«145118_j72292889526462_1_alg».proof.Proof.Gen.KernelIdeal.Skeleton
import proofs.«145118_j72292889526462_1_alg».proof.Proof.NodeReadout
import Idealize.ShloMosaic.Lib.Pipeline.Value
import Idealize.ShloMosaic.PureOps.Ideal.Laws

noncomputable section
open scoped BigOperators
namespace Cert.KernelNode
open Cert.KernelIdeal Cert.KernelIdeal.Gen Idealize.ShloMosaic Idealize.ShloMosaic.ValueIdx Cert.NodeReadout

/-! ## The matrix products read at an index

The sum a product ranges over is indexed by the contraction shape of its dimension numbers, here always one axis;
it is carried to a sum over that axis's coordinate, where the operand indices become plain coordinate tuples. -/

theorem matmul_first_apply_lhs0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide),
    dif_pos (show (0 : Fin S2000x128.rank) ∈ dot_S2000x128_S128x256_S2000x256_1_0_0_1_n_n.lhsNonContracting by decide)]
  rfl
theorem matmul_first_apply_lhs1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem matmul_first_apply_rhs0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem matmul_first_apply_rhs1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide),
    dif_pos (show (1 : Fin S128x256.rank) ∈ dot_S2000x128_S128x256_S2000x256_1_0_0_1_n_n.rhsNonContracting by decide)]
  rfl

/-- Rows times columns: entry `(r, j)` of the product is `∑ k, lhs (r, k) · rhs (k, j)`, the zero accumulator adding nothing. -/
theorem matmul_first_apply (lhs : FVec Ideal S2000x128 .f32) (rhs : FVec Ideal S128x256 .f32) (r : Fin 2000) (j : Fin 256) :
    matmul dot_S2000x128_S128x256_S2000x256_1_0_0_1_n_n none lhs rhs (constant S2000x256 .f32 0x00000000#32) (ix2 r j)
      = ∑ k : Fin 128, lhs (ix2 r k) * rhs (ix2 k j) := by
  refine (Ideal.matmul_constant_zero_apply dot_S2000x128_S128x256_S2000x256_1_0_0_1_n_n none lhs rhs (ix2 r j)).trans ?_
  rw [← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 r j) ((contrEquiv1 dot_S2000x128_S128x256_S2000x256_1_0_0_1_n_n 128 rfl rfl).symm k) = ix2 r k :=
    funext fun a => Fin.ext (by
      match a with
      | ⟨0, _⟩ => exact matmul_first_apply_lhs0 _ _
      | ⟨1, _⟩ => exact (matmul_first_apply_lhs1 _ _).trans hk)
  have er : dot_S2000x128_S128x256_S2000x256_1_0_0_1_n_n.rhsIdx (ix2 r j) ((contrEquiv1 dot_S2000x128_S128x256_S2000x256_1_0_0_1_n_n 128 rfl rfl).symm k) = ix2 k j :=
    funext fun a => Fin.ext (by
      match a with
      | ⟨0, _⟩ => exact (matmul_first_apply_rhs0 _ _).trans hk
      | ⟨1, _⟩ => exact matmul_first_apply_rhs1 _ _)
  rw [el, er]

theorem matmul_second64_apply_lhs0 (i : S2000x64.Idx) (q : dot_S2000x256_S256x64_S2000x64_1_0_0_1_n_n.contr.Idx) :
    (dot_S2000x256_S256x64_S2000x64_1_0_0_1_n_n.lhsIdx i q 0).val = (i 0).val := by
  unfold DotDims.lhsIdx
  rw [dif_neg (show ¬(0 : Fin S2000x256.rank) ∈ dot_S2000x256_S256x64_S2000x64_1_0_0_1_n_n.lhsBatch by decide),
    dif_pos (show (0 : Fin S2000x256.rank) ∈ dot_S2000x256_S256x64_S2000x64_1_0_0_1_n_n.lhsNonContracting by decide)]
  rfl
theorem matmul_second64_apply_lhs1 (i : S2000x64.Idx) (q : dot_S2000x256_S256x64_S2000x64_1_0_0_1_n_n.contr.Idx) :
    (dot_S2000x256_S256x64_S2000x64_1_0_0_1_n_n.lhsIdx i q 1).val = (q ⟨0, by decide⟩).val :=
  dot_S2000x256_S256x64_S2000x64_1_0_0_1_n_n.lhsIdx_val_of_single rfl i q
theorem matmul_second64_apply_rhs0 (i : S2000x64.Idx) (q : dot_S2000x256_S256x64_S2000x64_1_0_0_1_n_n.contr.Idx) :
    (dot_S2000x256_S256x64_S2000x64_1_0_0_1_n_n.rhsIdx i q 0).val = (q ⟨0, by decide⟩).val :=
  dot_S2000x256_S256x64_S2000x64_1_0_0_1_n_n.rhsIdx_val_of_single rfl i q
theorem matmul_second64_apply_rhs1 (i : S2000x64.Idx) (q : dot_S2000x256_S256x64_S2000x64_1_0_0_1_n_n.contr.Idx) :
    (dot_S2000x256_S256x64_S2000x64_1_0_0_1_n_n.rhsIdx i q 1).val = (i 1).val := by
  unfold DotDims.rhsIdx
  rw [dif_neg (show ¬(1 : Fin S256x64.rank) ∈ dot_S2000x256_S256x64_S2000x64_1_0_0_1_n_n.rhsBatch by decide),
    dif_pos (show (1 : Fin S256x64.rank) ∈ dot_S2000x256_S256x64_S2000x64_1_0_0_1_n_n.rhsNonContracting by decide)]
  rfl

/-- Rows times columns: entry `(r, j)` of the product is `∑ k, lhs (r, k) · rhs (k, j)`, the zero accumulator adding nothing. -/
theorem matmul_second64_apply (lhs : FVec Ideal S2000x256 .f32) (rhs : FVec Ideal S256x64 .f32) (r : Fin 2000) (j : Fin 64) :
    matmul dot_S2000x256_S256x64_S2000x64_1_0_0_1_n_n none lhs rhs (constant S2000x64 .f32 0x00000000#32) (ix2 r j)
      = ∑ k : Fin 256, lhs (ix2 r k) * rhs (ix2 k j) := by
  refine (Ideal.matmul_constant_zero_apply dot_S2000x256_S256x64_S2000x64_1_0_0_1_n_n none lhs rhs (ix2 r j)).trans ?_
  rw [← Equiv.sum_comp (contrEquiv1 dot_S2000x256_S256x64_S2000x64_1_0_0_1_n_n 256 rfl rfl).symm]
  refine Finset.sum_congr rfl fun k _ => ?_
  have hk := contrEquiv1_symm_val dot_S2000x256_S256x64_S2000x64_1_0_0_1_n_n 256 rfl rfl k
  have el : dot_S2000x256_S256x64_S2000x64_1_0_0_1_n_n.lhsIdx (ix2 r j) ((contrEquiv1 dot_S2000x256_S256x64_S2000x64_1_0_0_1_n_n 256 rfl rfl).symm k) = ix2 r k :=
    funext fun a => Fin.ext (by
      match a with
      | ⟨0, _⟩ => exact matmul_second64_apply_lhs0 _ _
      | ⟨1, _⟩ => exact (matmul_second64_apply_lhs1 _ _).trans hk)
  have er : dot_S2000x256_S256x64_S2000x64_1_0_0_1_n_n.rhsIdx (ix2 r j) ((contrEquiv1 dot_S2000x256_S256x64_S2000x64_1_0_0_1_n_n 256 rfl rfl).symm k) = ix2 k j :=
    funext fun a => Fin.ext (by
      match a with
      | ⟨0, _⟩ => exact (matmul_second64_apply_rhs0 _ _).trans hk
      | ⟨1, _⟩ => exact matmul_second64_apply_rhs1 _ _)
  rw [el, er]

theorem matmul_second512_apply_lhs0 (i : S2000x512.Idx) (q : dot_S2000x256_S256x512_S2000x512_1_0_0_1_n_n.contr.Idx) :
    (dot_S2000x256_S256x512_S2000x512_1_0_0_1_n_n.lhsIdx i q 0).val = (i 0).val := by
  unfold DotDims.lhsIdx
  rw [dif_neg (show ¬(0 : Fin S2000x256.rank) ∈ dot_S2000x256_S256x512_S2000x512_1_0_0_1_n_n.lhsBatch by decide),
    dif_pos (show (0 : Fin S2000x256.rank) ∈ dot_S2000x256_S256x512_S2000x512_1_0_0_1_n_n.lhsNonContracting by decide)]
  rfl
theorem matmul_second512_apply_lhs1 (i : S2000x512.Idx) (q : dot_S2000x256_S256x512_S2000x512_1_0_0_1_n_n.contr.Idx) :
    (dot_S2000x256_S256x512_S2000x512_1_0_0_1_n_n.lhsIdx i q 1).val = (q ⟨0, by decide⟩).val :=
  dot_S2000x256_S256x512_S2000x512_1_0_0_1_n_n.lhsIdx_val_of_single rfl i q
theorem matmul_second512_apply_rhs0 (i : S2000x512.Idx) (q : dot_S2000x256_S256x512_S2000x512_1_0_0_1_n_n.contr.Idx) :
    (dot_S2000x256_S256x512_S2000x512_1_0_0_1_n_n.rhsIdx i q 0).val = (q ⟨0, by decide⟩).val :=
  dot_S2000x256_S256x512_S2000x512_1_0_0_1_n_n.rhsIdx_val_of_single rfl i q
theorem matmul_second512_apply_rhs1 (i : S2000x512.Idx) (q : dot_S2000x256_S256x512_S2000x512_1_0_0_1_n_n.contr.Idx) :
    (dot_S2000x256_S256x512_S2000x512_1_0_0_1_n_n.rhsIdx i q 1).val = (i 1).val := by
  unfold DotDims.rhsIdx
  rw [dif_neg (show ¬(1 : Fin S256x512.rank) ∈ dot_S2000x256_S256x512_S2000x512_1_0_0_1_n_n.rhsBatch by decide),
    dif_pos (show (1 : Fin S256x512.rank) ∈ dot_S2000x256_S256x512_S2000x512_1_0_0_1_n_n.rhsNonContracting by decide)]
  rfl

/-- Rows times columns: entry `(r, j)` of the product is `∑ k, lhs (r, k) · rhs (k, j)`, the zero accumulator adding nothing. -/
theorem matmul_second512_apply (lhs : FVec Ideal S2000x256 .f32) (rhs : FVec Ideal S256x512 .f32) (r : Fin 2000) (j : Fin 512) :
    matmul dot_S2000x256_S256x512_S2000x512_1_0_0_1_n_n none lhs rhs (constant S2000x512 .f32 0x00000000#32) (ix2 r j)
      = ∑ k : Fin 256, lhs (ix2 r k) * rhs (ix2 k j) := by
  refine (Ideal.matmul_constant_zero_apply dot_S2000x256_S256x512_S2000x512_1_0_0_1_n_n none lhs rhs (ix2 r j)).trans ?_
  rw [← Equiv.sum_comp (contrEquiv1 dot_S2000x256_S256x512_S2000x512_1_0_0_1_n_n 256 rfl rfl).symm]
  refine Finset.sum_congr rfl fun k _ => ?_
  have hk := contrEquiv1_symm_val dot_S2000x256_S256x512_S2000x512_1_0_0_1_n_n 256 rfl rfl k
  have el : dot_S2000x256_S256x512_S2000x512_1_0_0_1_n_n.lhsIdx (ix2 r j) ((contrEquiv1 dot_S2000x256_S256x512_S2000x512_1_0_0_1_n_n 256 rfl rfl).symm k) = ix2 r k :=
    funext fun a => Fin.ext (by
      match a with
      | ⟨0, _⟩ => exact matmul_second512_apply_lhs0 _ _
      | ⟨1, _⟩ => exact (matmul_second512_apply_lhs1 _ _).trans hk)
  have er : dot_S2000x256_S256x512_S2000x512_1_0_0_1_n_n.rhsIdx (ix2 r j) ((contrEquiv1 dot_S2000x256_S256x512_S2000x512_1_0_0_1_n_n 256 rfl rfl).symm k) = ix2 k j :=
    funext fun a => Fin.ext (by
      match a with
      | ⟨0, _⟩ => exact (matmul_second512_apply_rhs0 _ _).trans hk
      | ⟨1, _⟩ => exact matmul_second512_apply_rhs1 _ _)
  rw [el, er]

theorem matmul_contract_apply_lhs0 (i : S2000x16x3.Idx) (q : dot_S2000x32x16_S2000x32x3_S2000x16x3_1_1_2_2_0_0.contr.Idx) :
    (dot_S2000x32x16_S2000x32x3_S2000x16x3_1_1_2_2_0_0.lhsIdx i q 0).val = (i 0).val := by
  unfold DotDims.lhsIdx
  rw [dif_pos (show (0 : Fin S2000x32x16.rank) ∈ dot_S2000x32x16_S2000x32x3_S2000x16x3_1_1_2_2_0_0.lhsBatch by decide)]
  rfl
theorem matmul_contract_apply_lhs1 (i : S2000x16x3.Idx) (q : dot_S2000x32x16_S2000x32x3_S2000x16x3_1_1_2_2_0_0.contr.Idx) :
    (dot_S2000x32x16_S2000x32x3_S2000x16x3_1_1_2_2_0_0.lhsIdx i q 1).val = (q ⟨0, by decide⟩).val :=
  dot_S2000x32x16_S2000x32x3_S2000x16x3_1_1_2_2_0_0.lhsIdx_val_of_single rfl i q
theorem matmul_contract_apply_lhs2 (i : S2000x16x3.Idx) (q : dot_S2000x32x16_S2000x32x3_S2000x16x3_1_1_2_2_0_0.contr.Idx) :
    (dot_S2000x32x16_S2000x32x3_S2000x16x3_1_1_2_2_0_0.lhsIdx i q 2).val = (i 1).val := by
  unfold DotDims.lhsIdx
  rw [dif_neg (show ¬(2 : Fin S2000x32x16.rank) ∈ dot_S2000x32x16_S2000x32x3_S2000x16x3_1_1_2_2_0_0.lhsBatch by decide),
    dif_pos (show (2 : Fin S2000x32x16.rank) ∈ dot_S2000x32x16_S2000x32x3_S2000x16x3_1_1_2_2_0_0.lhsNonContracting by decide)]
  rfl
theorem matmul_contract_apply_rhs0 (i : S2000x16x3.Idx) (q : dot_S2000x32x16_S2000x32x3_S2000x16x3_1_1_2_2_0_0.contr.Idx) :
    (dot_S2000x32x16_S2000x32x3_S2000x16x3_1_1_2_2_0_0.rhsIdx i q 0).val = (i 0).val := by
  unfold DotDims.rhsIdx
  rw [dif_pos (show (0 : Fin S2000x32x3.rank) ∈ dot_S2000x32x16_S2000x32x3_S2000x16x3_1_1_2_2_0_0.rhsBatch by decide)]
  rfl
theorem matmul_contract_apply_rhs1 (i : S2000x16x3.Idx) (q : dot_S2000x32x16_S2000x32x3_S2000x16x3_1_1_2_2_0_0.contr.Idx) :
    (dot_S2000x32x16_S2000x32x3_S2000x16x3_1_1_2_2_0_0.rhsIdx i q 1).val = (q ⟨0, by decide⟩).val :=
  dot_S2000x32x16_S2000x32x3_S2000x16x3_1_1_2_2_0_0.rhsIdx_val_of_single rfl i q
theorem matmul_contract_apply_rhs2 (i : S2000x16x3.Idx) (q : dot_S2000x32x16_S2000x32x3_S2000x16x3_1_1_2_2_0_0.contr.Idx) :
    (dot_S2000x32x16_S2000x32x3_S2000x16x3_1_1_2_2_0_0.rhsIdx i q 2).val = (i 2).val := by
  unfold DotDims.rhsIdx
  rw [dif_neg (show ¬(2 : Fin S2000x32x3.rank) ∈ dot_S2000x32x16_S2000x32x3_S2000x16x3_1_1_2_2_0_0.rhsBatch by decide),
    dif_pos (show (2 : Fin S2000x32x3.rank) ∈ dot_S2000x32x16_S2000x32x3_S2000x16x3_1_1_2_2_0_0.rhsNonContracting by decide)]
  rfl

/-- The per-node contraction: entry `(r, o, μ)` is `∑ i, lhs (r, i, o) · rhs (r, i, μ)`, node `r` by itself. -/
theorem matmul_contract_apply (lhs : FVec Ideal S2000x32x16 .f32) (rhs : FVec Ideal S2000x32x3 .f32) (r : Fin 2000) (o : Fin 16) (μ : Fin 3) :
    matmul dot_S2000x32x16_S2000x32x3_S2000x16x3_1_1_2_2_0_0 none lhs rhs (constant S2000x16x3 .f32 0x00000000#32) (ix3 r o μ)
      = ∑ i : Fin 32, lhs (ix3 r i o) * rhs (ix3 r i μ) := by
  refine (Ideal.matmul_constant_zero_apply dot_S2000x32x16_S2000x32x3_S2000x16x3_1_1_2_2_0_0 none lhs rhs (ix3 r o μ)).trans ?_
  rw [← Equiv.sum_comp (contrEquiv1 dot_S2000x32x16_S2000x32x3_S2000x16x3_1_1_2_2_0_0 32 rfl rfl).symm]
  refine Finset.sum_congr rfl fun k _ => ?_
  have hk := contrEquiv1_symm_val dot_S2000x32x16_S2000x32x3_S2000x16x3_1_1_2_2_0_0 32 rfl rfl k
  have el : dot_S2000x32x16_S2000x32x3_S2000x16x3_1_1_2_2_0_0.lhsIdx (ix3 r o μ) ((contrEquiv1 dot_S2000x32x16_S2000x32x3_S2000x16x3_1_1_2_2_0_0 32 rfl rfl).symm k) = ix3 r k o :=
    funext fun a => Fin.ext (by
      match a with
      | ⟨0, _⟩ => exact matmul_contract_apply_lhs0 _ _
      | ⟨1, _⟩ => exact (matmul_contract_apply_lhs1 _ _).trans hk
      | ⟨2, _⟩ => exact matmul_contract_apply_lhs2 _ _)
  have er : dot_S2000x32x16_S2000x32x3_S2000x16x3_1_1_2_2_0_0.rhsIdx (ix3 r o μ) ((contrEquiv1 dot_S2000x32x16_S2000x32x3_S2000x16x3_1_1_2_2_0_0 32 rfl rfl).symm k) = ix3 r k μ :=
    funext fun a => Fin.ext (by
      match a with
      | ⟨0, _⟩ => exact matmul_contract_apply_rhs0 _ _
      | ⟨1, _⟩ => exact (matmul_contract_apply_rhs1 _ _).trans hk
      | ⟨2, _⟩ => exact matmul_contract_apply_rhs2 _ _)
  rw [el, er]

/-! ## The layout operations read at an index -/

/-- The scalars' slice: entry `(r, k)` is feature `k` of node `r`. -/
theorem slice_scalars_apply (x : FVec Ideal S2000x224 .f32) (h : S2000x224.Slices ![0, 0] S2000x128) (r : Fin 2000) (k : Fin 128) :
    extractStridedSlice S2000x128 ![0, 0] x h (ix2 r k) = x (ix2 r ⟨k.val, by have := k.isLt; omega⟩) :=
  extractStridedSlice_apply ![0, 0] x h (ix2 r k) (ix2 r ⟨k.val, by have := k.isLt; omega⟩)
    (fun a => match a with
      | ⟨0, _⟩ => by show r.val = 0 + r.val; omega
      | ⟨1, _⟩ => by show k.val = 0 + k.val; omega)

/-- The vectors' slice: entry `(r, q)` is feature `128 + q` of node `r`. -/
theorem slice_vectors_apply (x : FVec Ideal S2000x224 .f32) (h : S2000x224.Slices ![0, 128] S2000x96) (r : Fin 2000) (q : Fin 96) :
    extractStridedSlice S2000x96 ![0, 128] x h (ix2 r q) = x (ix2 r ⟨128 + q.val, by have := q.isLt; omega⟩) :=
  extractStridedSlice_apply ![0, 128] x h (ix2 r q) (ix2 r ⟨128 + q.val, by have := q.isLt; omega⟩)
    (fun a => match a with
      | ⟨0, _⟩ => by show r.val = 0 + r.val; omega
      | ⟨1, _⟩ => by show 128 + q.val = 128 + q.val; omega)

/-- 96 columns as 32 three-vectors: entry `(r, i, μ)` is column `3 i + μ`. -/
theorem cast_vectors_apply (x : FVec Ideal S2000x96 .f32) (h : S2000x96.ShapeCasts S2000x32x3) (r : Fin 2000) (i : Fin 32) (μ : Fin 3) :
    shapeCast S2000x32x3 x h (ix3 r i μ) = x (ix2 r ⟨i.val * 3 + μ.val, by have := i.isLt; have := μ.isLt; omega⟩) :=
  shapeCast_apply x h (ix3 r i μ) (ix2 r ⟨i.val * 3 + μ.val, by have := i.isLt; have := μ.isLt; omega⟩)
    (by rewrite [Shape.rowMajor_val_two, Shape.rowMajor_val_three]
        show r.val * 96 + (i.val * 3 + μ.val) = (r.val * 32 + i.val) * 3 + μ.val; omega)

/-- 512 columns as a 32 × 16 matrix: entry `(r, i, o)` is column `16 i + o`. -/
theorem cast_weights_apply (x : FVec Ideal S2000x512 .f32) (h : S2000x512.ShapeCasts S2000x32x16) (r : Fin 2000) (i : Fin 32) (o : Fin 16) :
    shapeCast S2000x32x16 x h (ix3 r i o) = x (ix2 r ⟨i.val * 16 + o.val, by have := i.isLt; have := o.isLt; omega⟩) :=
  shapeCast_apply x h (ix3 r i o) (ix2 r ⟨i.val * 16 + o.val, by have := i.isLt; have := o.isLt; omega⟩)
    (by rewrite [Shape.rowMajor_val_two, Shape.rowMajor_val_three]
        show r.val * 512 + (i.val * 16 + o.val) = (r.val * 32 + i.val) * 16 + o.val; omega)

/-- 16 three-vectors as 48 columns: column `3 o + μ` is entry `(r, o, μ)`. -/
theorem cast_outputs_apply (x : FVec Ideal S2000x16x3 .f32) (h : S2000x16x3.ShapeCasts S2000x48) (r : Fin 2000) (o : Fin 16) (μ : Fin 3) :
    shapeCast S2000x48 x h (ix2 r ⟨o.val * 3 + μ.val, by have := o.isLt; have := μ.isLt; omega⟩) = x (ix3 r o μ) :=
  shapeCast_apply x h (ix2 r ⟨o.val * 3 + μ.val, by have := o.isLt; have := μ.isLt; omega⟩) (ix3 r o μ)
    (by rewrite [Shape.rowMajor_val_two, Shape.rowMajor_val_three]
        show (r.val * 16 + o.val) * 3 + μ.val = r.val * 48 + (o.val * 3 + μ.val); omega)

/-- The activity column spread over the 112 outputs: entry `(r, c)` is the activity of node `r`. -/
theorem mask_apply (a : FVec Ideal S2000x1 .f32) (h₁ : S2000x1.ShapeCasts S2000x1) (h₂ : S2000x1.Broadcasts S2000x112)
    (r : Fin 2000) (c : Fin 112) :
    broadcastTo S2000x112 (shapeCast S2000x1 a h₁) h₂ (ix2 r c) = a (ix2 r (0 : Fin 1)) := by
  rw [shapeCast_self]
  exact broadcastTo_apply a h₂ (ix2 r c) (ix2 r (0 : Fin 1)) (fun b => match b with
    | ⟨0, _⟩ => rfl
    | ⟨1, _⟩ => rfl)

/-- The joined outputs at one of the first 64 columns: the first piece there. -/
theorem concat_scalar_apply (x₁ : FVec Ideal S2000x64 .f32) (x₂ : FVec Ideal S2000x48 .f32)
    (h : Shape.Concatenates [S2000x64, S2000x48] S2000x112 1) (r : Fin 2000) (o : Fin 64) :
    concatenate S2000x112 1 [⟨S2000x64, x₁⟩, ⟨S2000x48, x₂⟩] h (ix2 r ⟨o.val, by have := o.isLt; omega⟩) = x₁ (ix2 r o) :=
  concatenate_pair_apply_left 1 x₁ x₂ h (ix2 r ⟨o.val, by have := o.isLt; omega⟩) rfl (ix2 r o)
    (fun b => match b with
      | ⟨0, _⟩ => rfl
      | ⟨1, _⟩ => rfl)

/-- The joined outputs at column `64 + q`: the second piece at column `q`. -/
theorem concat_vector_apply (x₁ : FVec Ideal S2000x64 .f32) (x₂ : FVec Ideal S2000x48 .f32)
    (h : Shape.Concatenates [S2000x64, S2000x48] S2000x112 1) (r : Fin 2000) (q : Fin 48) :
    concatenate S2000x112 1 [⟨S2000x64, x₁⟩, ⟨S2000x48, x₂⟩] h (ix2 r ⟨64 + q.val, by have := q.isLt; omega⟩) = x₂ (ix2 r q) :=
  concatenate_pair_apply_right 1 x₁ x₂ h (ix2 r ⟨64 + q.val, by have := q.isLt; omega⟩) rfl rfl (ix2 r q)
    (fun b hb => match b, hb with
      | ⟨0, _⟩, _ => rfl
      | ⟨1, _⟩, hb => absurd rfl hb)
    (by show q.val + 64 = 64 + q.val; omega)

/-! ## The arithmetic read at an index -/

/-- A product with a splat word reads the element times the word's value. -/
theorem scale_apply {s : Shape} (x : FVec Ideal s .f32) (w : BitVec 32) (i : s.Idx) :
    mulf x (broadcast s (Scalar.ofBits (F := Ideal) .f32 w)) i = x i * Ideal.ofBits .f32 w := rfl

/-- `z · logistic z` at an index is SiLU of the element. -/
theorem silu_apply {s : Shape} (z : FVec Ideal s .f32) (i : s.Idx) : mulf z (logistic z) i = silu (z i) := rfl

/-- A first layer before its nonlinearity: the scalars times the weights, fan-in normalised. -/
abbrev preact (x : FVec Ideal S2000x128 .f32) (W : FVec Ideal S128x256 .f32) : FVec Ideal S2000x256 .f32 :=
  mulf (matmul dot_S2000x128_S128x256_S2000x256_1_0_0_1_n_n none x W (constant S2000x256 .f32 0x00000000#32))
    (broadcast S2000x256 (Scalar.ofBits .f32 0x3DB504F3#32))

/-- A first layer: SiLU of the above. -/
abbrev hiddenLayer (x : FVec Ideal S2000x128 .f32) (W : FVec Ideal S128x256 .f32) : FVec Ideal S2000x256 .f32 :=
  mulf (preact x W) (logistic (preact x W))

/-- Entry `(r, j)` of a first layer is hidden unit `j` on row `r`. -/
theorem hiddenLayer_apply (x : FVec Ideal S2000x128 .f32) (W : FVec Ideal S128x256 .f32) (r : Fin 2000) (j : Fin 256) :
    hiddenLayer x W (ix2 r j) = NodeReadout.hidden (fun k => x (ix2 r k)) W j := by
  refine (silu_apply _ _).trans ?_
  unfold NodeReadout.hidden
  refine congrArg silu ?_
  refine (scale_apply _ _ _).trans ?_
  exact congrArg (· * cIn) (matmul_first_apply x W r j)

/-- The invariant head: 64 outputs of the second layer, fan-in normalised. -/
abbrev head64 (x : FVec Ideal S2000x128 .f32) (W₁ : FVec Ideal S128x256 .f32) (W₂ : FVec Ideal S256x64 .f32) :
    FVec Ideal S2000x64 .f32 :=
  mulf (matmul dot_S2000x256_S256x64_S2000x64_1_0_0_1_n_n none (hiddenLayer x W₁) W₂ (constant S2000x64 .f32 0x00000000#32))
    (broadcast S2000x64 (Scalar.ofBits .f32 0x3D800000#32))

/-- The weight head: 512 outputs of the second layer, fan-in normalised. -/
abbrev head512 (x : FVec Ideal S2000x128 .f32) (W₁ : FVec Ideal S128x256 .f32) (W₂ : FVec Ideal S256x512 .f32) :
    FVec Ideal S2000x512 .f32 :=
  mulf (matmul dot_S2000x256_S256x512_S2000x512_1_0_0_1_n_n none (hiddenLayer x W₁) W₂ (constant S2000x512 .f32 0x00000000#32))
    (broadcast S2000x512 (Scalar.ofBits .f32 0x3D800000#32))

/-- Entry `(r, o)` of the invariant head is the perceptron's output `o` on row `r`. -/
theorem head64_apply (x : FVec Ideal S2000x128 .f32) (W₁ : FVec Ideal S128x256 .f32) (W₂ : FVec Ideal S256x64 .f32)
    (r : Fin 2000) (o : Fin 64) :
    head64 x W₁ W₂ (ix2 r o) = perceptron (fun k => x (ix2 r k)) W₁ W₂ o := by
  refine (scale_apply _ _ _).trans ?_
  unfold perceptron
  refine congrArg (· * cHid) ?_
  refine (matmul_second64_apply _ _ r o).trans ?_
  exact Finset.sum_congr rfl fun j _ => congrArg (· * W₂ (ix2 j o)) (hiddenLayer_apply x W₁ r j)

/-- Entry `(r, q)` of the weight head is the perceptron's output `q` on row `r`. -/
theorem head512_apply (x : FVec Ideal S2000x128 .f32) (W₁ : FVec Ideal S128x256 .f32) (W₂ : FVec Ideal S256x512 .f32)
    (r : Fin 2000) (q : Fin 512) :
    head512 x W₁ W₂ (ix2 r q) = perceptron (fun k => x (ix2 r k)) W₁ W₂ q := by
  refine (scale_apply _ _ _).trans ?_
  unfold perceptron
  refine congrArg (· * cHid) ?_
  refine (matmul_second512_apply _ _ r q).trans ?_
  exact Finset.sum_congr rfl fun j _ => congrArg (· * W₂ (ix2 j q)) (hiddenLayer_apply x W₁ r j)

/-- Row `r` of the scalars' slice is the scalars of row `r`. -/
theorem scalars_slice (v : FVec Ideal S2000x224 .f32) (h : S2000x224.Slices ![0, 0] S2000x128) (r : Fin 2000) :
    (fun k : Fin 128 => extractStridedSlice S2000x128 ![0, 0] v h (ix2 r k)) = scalars (fun k => v (ix2 r k)) :=
  funext fun k => slice_scalars_apply v h r k

/-- The contraction as the program computes it: the weight head as a 32 × 16 matrix against the 32 three-vectors,
    node by node, scaled. -/
abbrev contracted (v : FVec Ideal S2000x224 .f32) (W₁ : FVec Ideal S128x256 .f32) (W₂ : FVec Ideal S256x512 .f32)
    (h₁ : S2000x224.Slices ![0, 0] S2000x128) (h₂ : S2000x224.Slices ![0, 128] S2000x96)
    (h₃ : S2000x96.ShapeCasts S2000x32x3) (h₄ : S2000x512.ShapeCasts S2000x32x16) : FVec Ideal S2000x16x3 .f32 :=
  mulf (matmul dot_S2000x32x16_S2000x32x3_S2000x16x3_1_1_2_2_0_0 none
      (shapeCast S2000x32x16 (head512 (extractStridedSlice S2000x128 ![0, 0] v h₁) W₁ W₂) h₄)
      (shapeCast S2000x32x3 (extractStridedSlice S2000x96 ![0, 128] v h₂) h₃)
      (constant S2000x16x3 .f32 0x00000000#32))
    (broadcast S2000x16x3 (Scalar.ofBits .f32 0x3E3504F3#32))

/-- Entry `(r, o, μ)` of it is component `μ` of output vector `o` of row `r`. -/
theorem contracted_apply (v : FVec Ideal S2000x224 .f32) (W₁ : FVec Ideal S128x256 .f32) (W₂ : FVec Ideal S256x512 .f32)
    (h₁ : S2000x224.Slices ![0, 0] S2000x128) (h₂ : S2000x224.Slices ![0, 128] S2000x96)
    (h₃ : S2000x96.ShapeCasts S2000x32x3) (h₄ : S2000x512.ShapeCasts S2000x32x16)
    (r : Fin 2000) (o : Fin 16) (μ : Fin 3) :
    contracted v W₁ W₂ h₁ h₂ h₃ h₄ (ix3 r o μ) = contraction (fun k => v (ix2 r k)) W₁ W₂ o μ := by
  refine (scale_apply _ _ _).trans ?_
  unfold contraction
  refine congrArg (· * cMul) ?_
  refine (matmul_contract_apply _ _ r o μ).trans ?_
  refine Finset.sum_congr rfl fun i _ => ?_
  refine congrArg₂ (· * ·) ?_ ?_
  · refine (cast_weights_apply _ h₄ r i o).trans ?_
    refine (head512_apply _ W₁ W₂ r _).trans ?_
    exact congrArg (fun s => perceptron s W₁ W₂ _) (scalars_slice v h₁ r)
  · refine (cast_vectors_apply _ h₃ r i μ).trans ?_
    exact slice_vectors_apply v h₂ r _

/-! ## The body's value at an index -/

/-- Entry `(r, c)` of what the body stores is output `c` of the node function on row `r` of the features, with the
    activity of row `r`. -/
theorem payload_apply (v0 : Vec Ideal S2000x224 .f32) (v4 : Vec Ideal S128x256 .f32) (v10 : Vec Ideal S256x64 .f32)
    (v14 : Vec Ideal S128x256 .f32) (v20 : Vec Ideal S256x512 .f32) (v30 : Vec Ideal S2000x1 .f32) (r : Fin 2000) (c : Fin 112) :
    k0_pay1 (F := Ideal) v0 v4 v10 v14 v20 v30 (ix2 r c)
      = node (fun k => v0 (ix2 r k)) (v30 (ix2 r (0 : Fin 1))) v4 v10 v14 v20 c := by
  unfold k0_pay1
  refine (mulf_apply _ _ (ix2 r c)).trans ?_
  rcases output_cases c with ⟨o, rfl⟩ | ⟨o, μ, rfl⟩
  · refine Eq.trans ?_ (node_scalar _ _ v4 v10 v14 v20 o).symm
    refine congrArg₂ (· * ·) ?_ (mask_apply v30 _ _ r _)
    refine (concat_scalar_apply _ _ _ r o).trans ?_
    refine (head64_apply _ v4 v10 r o).trans ?_
    exact congrArg (fun s => perceptron s v4 v10 o) (scalars_slice v0 _ r)
  · refine Eq.trans ?_ (node_vector _ _ v4 v10 v14 v20 o μ).symm
    refine congrArg₂ (· * ·) ?_ (mask_apply v30 _ _ r _)
    refine (concat_vector_apply _ _ _ r ⟨o.val * 3 + μ.val, by have := o.isLt; have := μ.isLt; omega⟩).trans ?_
    refine (cast_outputs_apply _ _ r o μ).trans ?_
    exact contracted_apply v0 v14 v20 _ _ _ _ r o μ

end Cert.KernelNode
end
-- ==== Proof.KernelArray.lean ====
/-
  From the grid's blocks to the whole result array.

  The region runs over 50 grid points; point `t` loads rows `2000 t … 2000 t + 1999` of the features and of the
  activity column, the four weight matrices whole, and writes back rows `2000 t … 2000 t + 1999` of the result.
  Entry `(r, c)` of what it writes is output `c` of the node function on row `r` of its feature block
  (`KernelNode.payload_apply`), so it is entry `(2000 t + r, c)` of ONE array, `final`: the node function of every
  row of the arrays the region finds. The 50 blocks tile the 100000 rows — row `n` lies in the block of point
  `n / 2000` —, so the result array ends holding `final`.

  The activity column is written by the host operations before the region: a vector of zero bits with the bit one
  scattered to every edge's source node, converted to floats and reshaped to a column. It is read back from the
  operations' composed term without ever evaluating the scatter.
-/
import proofs.«145118_j72292889526462_1_alg».proof.Proof.Gen.KernelIdeal.Value
import proofs.«145118_j72292889526462_1_alg».proof.Proof.NodeReadout
import proofs.«145118_j72292889526462_1_alg».proof.Proof.KernelNode
import Idealize.ShloMosaic.Lib.Pipeline.Value
import Idealize.ShloMosaic.Lib.StableHlo.Run

noncomputable section

open scoped BigOperators

namespace Cert.KernelArray
open Cert.KernelIdeal Cert.KernelIdeal.Gen Idealize.ShloMosaic Idealize.ShloMosaic.TcCoe Idealize.SL.Sem Idealize.ShloMosaic.ValueIdx Cert.NodeReadout
open Idealize.ShloMosaic.StableHlo
open Idealize.ShloMosaic.Pipeline (Dat)

variable (m : (ℓ : Loc nD τ sig) → Buf (Elt Ideal) ℓ) (ρ : Dev nD → PrngReg)

/-! ## The activity bits -/

/-- Which nodes some edge leaves: a vector of zero bits with the bit `1` scattered to every edge's source node (a negative
    source index counted from the end, as the scatter's index arithmetic has it). -/
def sourceBits (x1 : IVec S2x1600000 32) : IVec S100000 1 :=
  Host.scatter scatter_S100000_S1600000x1_S1600000_n_0_0_1 (fun _ b => b)
    (broadcastInDim S100000 ![] bcast_S_S100000 (constantI S_ 1 0#1))
    (broadcastInDim S1600000x1 ![0] bcast_S1600000_S1600000x1_0
      (select
        (cmpi .slt (shapeCast S1600000 (extractStridedSlice S1x1600000 ![0, 0] x1 slices_S2x1600000_S1x1600000_0_0) shapeCasts_S1x1600000_S1600000)
          (broadcastInDim S1600000 ![] bcast_S_S1600000 (constantI S_ 32 0#32)))
        (addi (shapeCast S1600000 (extractStridedSlice S1x1600000 ![0, 0] x1 slices_S2x1600000_S1x1600000_0_0) shapeCasts_S1x1600000_S1600000)
          (broadcastInDim S1600000 ![] bcast_S_S1600000 (constantI S_ 32 100000#32)))
        (shapeCast S1600000 (extractStridedSlice S1x1600000 ![0, 0] x1 slices_S2x1600000_S1x1600000_0_0) shapeCasts_S1x1600000_S1600000)))
    (broadcastInDim S1600000 ![] bcast_S_S1600000 (constantI S_ 1 1#1))

/-- The column the region finds in the mask buffer: the activity bits as floats, one per row. -/
theorem mask_column (c : Dev nD) :
    (V m c main_v12 : S100000x1.Idx → EReal)
      = shapeCast S100000x1 (uitofp (F := Ideal) .f32 (sourceBits (m (c, Proc.tc.devRef main_arg1)))) shapeCasts_S100000_S100000x1 := by
  dsimp only [Gen.V, Gen.hostOps0]
  after_results
  rfl

/-! ## The blocks -/

theorem hz : (![0, 0] : Fin 2 → Nat) = fun _ => 0 := funext fun a => by fin_cases a <;> rfl

/-- The index maps over the grid: at point `t` the feature, mask and output windows sit at block row `t`, block column 0; the four
    weight windows stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem point_lt (t : Fin cfg0.N) : t.val < 50 := Nat.lt_of_lt_of_eq t.isLt N_0

/-- Row `r` of the block at point `t` is row `2000 t + r` of the array. -/
def row (t : Fin cfg0.N) (r : Fin 2000) : Fin 100000 :=
  ⟨t.val * 2000 + r.val, by have := point_lt t; have := r.isLt; omega⟩

/-- The feature block at point `t`, row by row. -/
theorem feature_block (c : Dev nD) (t : Fin cfg0.N) (r : Fin 2000) (k : Fin 224) :
    iblk m c 0 t (ix2 r k) = (V m c main_arg0 : S100000x224.Idx → EReal) (ix2 (row t r) k) := by
  obtain ⟨e0, e1, -⟩ := idx_facts t
  show V m c main_arg0 (((cfg0.win 0).blk t).view.emb (ix2 r k)) = V m c main_arg0 (ix2 (row t r) k)
  refine congrArg (V m c main_arg0) (funext fun a => Fin.ext ?_)
  match a with
  | ⟨0, _⟩ => show win0_0.index t (0 : Fin 2) * 2000 + 1 * r.val = t.val * 2000 + r.val; omega
  | ⟨1, _⟩ => show win0_0.index t (1 : Fin 2) * 224 + 1 * k.val = k.val; omega

/-- The mask block at point `t`, row by row. -/
theorem mask_block (c : Dev nD) (t : Fin cfg0.N) (r : Fin 2000) :
    iblk m c 1 t (ix2 r (0 : Fin 1)) = (V m c main_v12 : S100000x1.Idx → EReal) (ix2 (row t r) (0 : Fin 1)) := by
  obtain ⟨-, -, e0, e1, -⟩ := idx_facts t
  show V m c main_v12 (((cfg0.win 1).blk t).view.emb (ix2 r (0 : Fin 1))) = V m c main_v12 (ix2 (row t r) (0 : Fin 1))
  refine congrArg (V m c main_v12) (funext fun a => Fin.ext ?_)
  match a with
  | ⟨0, _⟩ => show win0_1.index t (0 : Fin 2) * 2000 + 1 * r.val = t.val * 2000 + r.val; omega
  | ⟨1, _⟩ => show win0_1.index t (1 : Fin 2) * 1 + 1 * 0 = 0; omega

/-- A weight window's block is the whole weight array, at every point. -/
theorem weight_block2 (c : Dev nD) (t : Fin cfg0.N) : iblk m c 2 t = (V m c main_arg2 : S128x256.Idx → EReal) := by
  obtain ⟨-, -, -, -, e0, e1, -⟩ := idx_facts t
  funext y
  show V m c main_arg2 (((cfg0.win 2).blk t).view.emb y) = V m c main_arg2 y
  refine congrArg (V m c main_arg2) (funext fun a => Fin.ext ?_)
  match a with
  | ⟨0, _⟩ => show win0_2.index t (0 : Fin 2) * 128 + 1 * (y 0).val = (y 0).val; omega
  | ⟨1, _⟩ => show win0_2.index t (1 : Fin 2) * 256 + 1 * (y 1).val = (y 1).val; omega
theorem weight_block3 (c : Dev nD) (t : Fin cfg0.N) : iblk m c 3 t = (V m c main_arg3 : S256x64.Idx → EReal) := by
  obtain ⟨-, -, -, -, -, -, e0, e1, -⟩ := idx_facts t
  funext y
  show V m c main_arg3 (((cfg0.win 3).blk t).view.emb y) = V m c main_arg3 y
  refine congrArg (V m c main_arg3) (funext fun a => Fin.ext ?_)
  match a with
  | ⟨0, _⟩ => show win0_3.index t (0 : Fin 2) * 256 + 1 * (y 0).val = (y 0).val; omega
  | ⟨1, _⟩ => show win0_3.index t (1 : Fin 2) * 64 + 1 * (y 1).val = (y 1).val; omega
theorem weight_block4 (c : Dev nD) (t : Fin cfg0.N) : iblk m c 4 t = (V m c main_arg4 : S128x256.Idx → EReal) := by
  obtain ⟨-, -, -, -, -, -, -, -, e0, e1, -⟩ := idx_facts t
  funext y
  show V m c main_arg4 (((cfg0.win 4).blk t).view.emb y) = V m c main_arg4 y
  refine congrArg (V m c main_arg4) (funext fun a => Fin.ext ?_)
  match a with
  | ⟨0, _⟩ => show win0_4.index t (0 : Fin 2) * 128 + 1 * (y 0).val = (y 0).val; omega
  | ⟨1, _⟩ => show win0_4.index t (1 : Fin 2) * 256 + 1 * (y 1).val = (y 1).val; omega
theorem weight_block5 (c : Dev nD) (t : Fin cfg0.N) : iblk m c 5 t = (V m c main_arg5 : S256x512.Idx → EReal) := by
  obtain ⟨-, -, -, -, -, -, -, -, -, -, e0, e1, -⟩ := idx_facts t
  funext y
  show V m c main_arg5 (((cfg0.win 5).blk t).view.emb y) = V m c main_arg5 y
  refine congrArg (V m c main_arg5) (funext fun a => Fin.ext ?_)
  match a with
  | ⟨0, _⟩ => show win0_5.index t (0 : Fin 2) * 256 + 1 * (y 0).val = (y 0).val; omega
  | ⟨1, _⟩ => show win0_5.index t (1 : Fin 2) * 512 + 1 * (y 1).val = (y 1).val; omega

/-! ## The result array -/

/-- Node `n`'s activity as the region finds it: entry `n` of the mask column. -/
def activity (c : Dev nD) (n : Fin 100000) : EReal := (V m c main_v12 : S100000x1.Idx → EReal) (ix2 n (0 : Fin 1))

/-- What the result array ends holding: the node function of every row of the arrays the region finds. -/
def final (c : Dev nD) : S100000x112.Idx → EReal :=
  result (V m c main_arg0) (activity m c) (V m c main_arg2) (V m c main_arg3) (V m c main_arg4) (V m c main_arg5)

/-- What point `t` writes back is block `t` of `final`. -/
theorem flushed_eq (c : Dev nD) (t : Fin cfg0.N) :
    (dats m 0 c).flushed 6 t = ((cfg0.win 6).blk t).view.read (Elt Ideal) (final m c) := by
  rw [Value.flushed6]
  unfold out0_6
  rw [View.canon_unit_zero hz]
  simp only [View.ld_unit_zero (S := S2000x224) hz, View.ld_unit_zero (S := S2000x1) hz, View.ld_unit_zero (S := S128x256) hz,
    View.ld_unit_zero (S := S256x64) hz, View.ld_unit_zero (S := S256x512) hz]
  obtain ⟨-, -, -, -, -, -, -, -, -, -, -, -, e0, e1⟩ := idx_facts t
  funext j
  obtain ⟨r, cc, rfl⟩ : ∃ (r : Fin 2000) (cc : Fin 112), j = ix2 r cc := ⟨j 0, j 1, eq_ix2 j⟩
  show k0_pay1 (iblk m c 0 t) (iblk m c 2 t) (iblk m c 3 t) (iblk m c 4 t) (iblk m c 5 t) (iblk m c 1 t) (ix2 r cc)
    = final m c (((cfg0.win 6).blk t).view.emb (ix2 r cc))
  have hemb : ((cfg0.win 6).blk t).view.emb (ix2 r cc) = (ix2 (row t r) cc : S100000x112.Idx) := by
    funext a; apply Fin.ext
    match a with
    | ⟨0, _⟩ => show win0_6.index t (0 : Fin 2) * 2000 + 1 * r.val = t.val * 2000 + r.val; omega
    | ⟨1, _⟩ => show win0_6.index t (1 : Fin 2) * 112 + 1 * cc.val = cc.val; omega
  rw [hemb]
  refine (Cert.KernelNode.payload_apply (iblk m c 0 t) (iblk m c 2 t) (iblk m c 3 t) (iblk m c 4 t) (iblk m c 5 t) (iblk m c 1 t) r cc).trans ?_
  unfold final
  rw [result_apply, weight_block2 m c t, weight_block3 m c t, weight_block4 m c t, weight_block5 m c t, mask_block m c t r]
  have e : (fun k : Fin 224 => iblk m c 0 t (ix2 r k)) = fun k => (V m c main_arg0 : S100000x224.Idx → EReal) (ix2 (row t r) k) :=
    funext fun k => feature_block m c t r k
  rw [e]
  rfl

/-- An index of the result array is in point `t`'s block iff each coordinate is in the block's range on its axis. -/
theorem mem_blk (t : Fin cfg0.N) (i : S100000x112.Idx) :
    i ∈ ((cfg0.win 6).blk t).view.set ↔ ∀ a : Fin 2, win0_6.index t a * S2000x112.size a ≤ (i a).val ∧ (i a).val < win0_6.index t a * S2000x112.size a + S2000x112.size a := by
  show i ∈ ((View.whole main_v13).slice (win0_6.rect t)).set ↔ _
  rw [View.set_slice_whole, Rect.mem_set_unit]
  exact Iff.rfl

/-- Every row of the result lies in some point's block: row `n` in the block of point `n / 2000`. -/
theorem cover (i : S100000x112.Idx) : ∃ t : Fin cfg0.N, (cfg0.win 6).flush t = true ∧ i ∈ ((cfg0.win 6).blk t).view.set := by
  have hi0 : (i 0).val < 100000 := (i 0).isLt
  have hi1 : (i 1).val < 112 := (i 1).isLt
  obtain ⟨t, ht⟩ : ∃ t : Fin cfg0.N, t.val = (i 0).val / 2000 :=
    ⟨⟨(i 0).val / 2000, Nat.lt_of_lt_of_eq (show (i 0).val / 2000 < 50 by omega) N_0.symm⟩, rfl⟩
  obtain ⟨-, -, -, -, -, -, -, -, -, -, -, -, e0, e1⟩ := idx_facts t
  refine ⟨t, flush0_6 t, ?_⟩
  rw [mem_blk]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 112 ≤ (i 1).val ∧ (i 1).val < win0_6.index t (1 : Fin 2) * 112 + 112; omega

/-- So the result array ends holding `final`. -/
theorem final_eq (c : Dev nD) : (dats m 0 c).arrAt 6 cfg0.N = final m c :=
  (dats m 0 c).arrAt_eq_of_cover 6 (final m c) (fun t _ => flushed_eq m c t) cover

/-- Node `n`'s activity is its source bit, converted. -/
theorem activity_eq (c : Dev nD) (n : Fin 100000) :
    activity m c n = FloatOps.uitofp (F := Ideal) .f32 (sourceBits (m (c, Proc.tc.devRef main_arg1)) (ix1 n)) := by
  unfold activity
  rw [mask_column]
  exact shapeCast_apply _ shapeCasts_S100000_S100000x1 (ix2 n (0 : Fin 1)) (ix1 n)
    (by rewrite [Shape.rowMajor_val_one, Shape.rowMajor_val_two]; show n.val = n.val * 1 + 0; omega)

/-- The result in terms of the memory the program is launched from. -/
theorem final_launch (c : Dev nD) :
    final m c = result (m ((c : Thread nD τ).loc main_arg0))
      (fun n => FloatOps.uitofp (F := Ideal) .f32 (sourceBits (m ((c : Thread nD τ).loc main_arg1)) (ix1 n)))
      (m ((c : Thread nD τ).loc main_arg2)) (m ((c : Thread nD τ).loc main_arg3))
      (m ((c : Thread nD τ).loc main_arg4)) (m ((c : Thread nD τ).loc main_arg5)) := by
  unfold final
  rw [V_main_arg0 m c, V_main_arg2 m c, V_main_arg3 m c, V_main_arg4 m c, V_main_arg5 m c]
  exact congrArg (fun a => result _ a _ _ _ _) (funext fun n => activity_eq m c n)

/-- The kernel's run: the result array ends at the node function of the launch arrays, row by row; the arguments unchanged. -/
theorem run : θ_run defs (onTc (τ := τ) (main (F := Ideal))) ⟨m, fun _ => 0, ρ⟩ fun r => ∀ c : Dev nD,
      r.2.mem ((c : Thread nD τ).loc main_v13) = result (m ((c : Thread nD τ).loc main_arg0))
        (fun n => FloatOps.uitofp (F := Ideal) .f32 (sourceBits (m ((c : Thread nD τ).loc main_arg1)) (ix1 n)))
        (m ((c : Thread nD τ).loc main_arg2)) (m ((c : Thread nD τ).loc main_arg3))
        (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1.trans (final_eq m c)).trans (final_launch m c), (h c).2⟩)
    (Cert.KernelIdeal.Value.run_blocks m ρ)

end Cert.KernelArray
end
-- ==== Proof.ReferenceNode.lean ====
/-
  The reference program computes the node readout, node by node.

  Read at row `n` and column `c`, the reference's result is the specification's `node` applied to row `n` of the
  features and to the activity of node `n`. The proof follows the program upward. The leading 128 columns of a row are
  the node's scalars; a matrix product with the first-layer weights, the scale 1/√128 and `z · 1/(1 + e^(-z))` give a
  hidden unit; a second matrix product and the scale 1/16 give a perceptron's output. Both perceptrons share this
  shape and differ only in their weights. The trailing 96 columns, regrouped, are the 32 three-vectors; the weight
  head's 512 channels, regrouped, are the 32 × 16 matrix; their contraction over the 32 vectors, scaled by 1/√32 and
  laid out as 48 columns, joins the 64 scalars to make the 112 outputs, and every column of a row is multiplied by
  that node's activity. Each regrouping is an identity between row-major positions, settled by linear arithmetic.
-/
import proofs.«145118_j72292889526462_1_alg».proof.Proof.Gen.ReferenceIdeal.Read
import proofs.«145118_j72292889526462_1_alg».proof.Proof.NodeReadout

noncomputable section
open scoped BigOperators
namespace Cert.ReferenceNode
open Cert.ReferenceIdeal Cert.ReferenceIdeal.Read Idealize.ShloMosaic Idealize.ShloMosaic.ValueIdx Cert.NodeReadout

/-- The activity of node `n`: the reference's one-bit mark of the node, read as a float. -/
def activity (x1 : (⟨S2x1600000, .i32⟩ : BufTy).Contents (Elt Ideal)) (n : Fin 100000) : EReal :=
  FloatOps.uitofp (F := Ideal) .f32 (val_main_v10 (F := Ideal) x1 (ix1 n))

/-- The features of node `n`. -/
abbrev row (x0 : (⟨S100000x224, .f32⟩ : BufTy).Contents (Elt Ideal)) (n : Fin 100000) : Fin 224 → EReal :=
  fun c => x0 (ix2 n c)

/-- The single-precision word `0x3F800000` denotes one. -/
theorem one_word : Ideal.ofBits .f32 0x3F800000#32 = 1 := IdealRules.sign_bit.ideal_onePat .f32

/-- `z · (1 / (1 + e^(-z)))`, the ones written as their word, is `silu z`. -/
theorem silu_word (z : EReal) :
    FloatOps.mulf (F := Ideal) (φ := .f32) z
      (FloatOps.hostDivf (F := Ideal) (φ := .f32) (FloatOps.ofBits (F := Ideal) .f32 0x3F800000#32)
        (FloatOps.addf (F := Ideal) (φ := .f32) (FloatOps.ofBits (F := Ideal) .f32 0x3F800000#32)
          (FloatOps.hostUnary (F := Ideal) .exp (φ := .f32) (FloatOps.hostNegf (F := Ideal) (φ := .f32) z)))) = silu z := by
  show z * Ideal.div (Ideal.ofBits .f32 0x3F800000#32) (Ideal.ofBits .f32 0x3F800000#32 + Ideal.exp (-z)) = silu z
  rw [one_word]
  rfl

/-- The leading 128 columns of the features are the node's scalars. -/
theorem scalars_read (x0 : (⟨S100000x224, .f32⟩ : BufTy).Contents (Elt Ideal)) (n : Fin 100000) (k : Fin 128) :
    val_main_v11 (F := Ideal) x0 (ix2 n k) = scalars (row x0 n) k := by
  refine (val_main_v11_apply x0 (ix2 n k)).trans ?_
  unfold scalars
  exact congrArg x0 (funext fun a => match a with | ⟨0, _⟩ => rfl | ⟨1, _⟩ => rfl)

/-- Both perceptrons' hidden layers are one expression of the first-layer weights. -/
theorem second_hidden (x0 : (⟨S100000x224, .f32⟩ : BufTy).Contents (Elt Ideal)) (x4 : (⟨S128x256, .f32⟩ : BufTy).Contents (Elt Ideal)) :
    val_main_v24 (F := Ideal) x0 x4 = val_main_v15 (F := Ideal) x0 x4 := rfl

/-- A first layer's pre-activation: `(∑ k, s k · W k j) · 1/√128`. -/
theorem preactivation_read (x0 : (⟨S100000x224, .f32⟩ : BufTy).Contents (Elt Ideal)) (W : (⟨S128x256, .f32⟩ : BufTy).Contents (Elt Ideal))
    (n : Fin 100000) (j : Fin 256) :
    val_main_v14 (F := Ideal) x0 W (ix2 n j) = (∑ k : Fin 128, scalars (row x0 n) k * W (ix2 k j)) * cIn := by
  refine (val_main_v14_apply x0 W (ix2 n j)).trans ?_
  rw [val_main_v12_apply, val_main_v13_apply, val_main_cst_apply]
  show (∑ k : Fin 128, val_main_v11 (F := Ideal) x0 (lidx_main_v12 (ix2 n j) k) * W (ridx_main_v12 (ix2 n j) k)) * cIn = _
  congr 1
  refine Finset.sum_congr rfl fun k _ => ?_
  have el : lidx_main_v12 (ix2 n j) k = ix2 n k := funext fun a => match a with | ⟨0, _⟩ => rfl | ⟨1, _⟩ => rfl
  have er : ridx_main_v12 (ix2 n j) k = ix2 k j := funext fun a => match a with | ⟨0, _⟩ => rfl | ⟨1, _⟩ => rfl
  rw [el, er, scalars_read]

/-- A hidden unit of a perceptron on the node's scalars. -/
theorem hidden_read (x0 : (⟨S100000x224, .f32⟩ : BufTy).Contents (Elt Ideal)) (W : (⟨S128x256, .f32⟩ : BufTy).Contents (Elt Ideal))
    (n : Fin 100000) (j : Fin 256) :
    val_main_v15 (F := Ideal) x0 W (ix2 n j) = hidden (scalars (row x0 n)) W j := by
  refine (val_main_v15_apply x0 W (ix2 n j)).trans ?_
  rw [val_main_call0_v5_apply, val_main_call0_v4_apply, val_main_call0_cst_0_apply, val_main_call0_v3_apply,
    val_main_call0_v2_apply, val_main_call0_cst_apply, val_main_call0_v1_apply, val_main_call0_v0_apply, preactivation_read]
  exact silu_word _

/-- The invariant head: output scalar `o` of node `n`. -/
theorem invariant_head_read (x0 : (⟨S100000x224, .f32⟩ : BufTy).Contents (Elt Ideal)) (x2 : (⟨S128x256, .f32⟩ : BufTy).Contents (Elt Ideal))
    (x3 : (⟨S256x64, .f32⟩ : BufTy).Contents (Elt Ideal)) (n : Fin 100000) (o : Fin 64) :
    val_main_v18 (F := Ideal) x0 x2 x3 (ix2 n o) = perceptron (scalars (row x0 n)) x2 x3 o := by
  refine (val_main_v18_apply x0 x2 x3 (ix2 n o)).trans ?_
  rw [val_main_v16_apply, val_main_v17_apply, val_main_cst_3_apply]
  show (∑ k : Fin 256, val_main_v15 (F := Ideal) x0 x2 (lidx_main_v16 (ix2 n o) k) * x3 (ridx_main_v16 (ix2 n o) k)) * cHid = _
  unfold perceptron
  congr 1
  refine Finset.sum_congr rfl fun k _ => ?_
  have el : lidx_main_v16 (ix2 n o) k = ix2 n k := funext fun a => match a with | ⟨0, _⟩ => rfl | ⟨1, _⟩ => rfl
  have er : ridx_main_v16 (ix2 n o) k = ix2 k o := funext fun a => match a with | ⟨0, _⟩ => rfl | ⟨1, _⟩ => rfl
  rw [el, er, hidden_read]

/-- The weight head: channel `q` of node `n`. -/
theorem weight_head_read (x0 : (⟨S100000x224, .f32⟩ : BufTy).Contents (Elt Ideal)) (x4 : (⟨S128x256, .f32⟩ : BufTy).Contents (Elt Ideal))
    (x5 : (⟨S256x512, .f32⟩ : BufTy).Contents (Elt Ideal)) (n : Fin 100000) (q : Fin 512) :
    val_main_v27 (F := Ideal) x0 x4 x5 (ix2 n q) = perceptron (scalars (row x0 n)) x4 x5 q := by
  refine (val_main_v27_apply x0 x4 x5 (ix2 n q)).trans ?_
  rw [val_main_v25_apply, val_main_v26_apply, val_main_cst_5_apply, second_hidden]
  show (∑ k : Fin 256, val_main_v15 (F := Ideal) x0 x4 (lidx_main_v25 (ix2 n q) k) * x5 (ridx_main_v25 (ix2 n q) k)) * cHid = _
  unfold perceptron
  congr 1
  refine Finset.sum_congr rfl fun k _ => ?_
  have el : lidx_main_v25 (ix2 n q) k = ix2 n k := funext fun a => match a with | ⟨0, _⟩ => rfl | ⟨1, _⟩ => rfl
  have er : ridx_main_v25 (ix2 n q) k = ix2 k q := funext fun a => match a with | ⟨0, _⟩ => rfl | ⟨1, _⟩ => rfl
  rw [el, er, hidden_read]

/-- The trailing 96 columns, read as 32 three-vectors: component `μ` of vector `i` of node `n`. -/
theorem vec_read (x0 : (⟨S100000x224, .f32⟩ : BufTy).Contents (Elt Ideal)) (n : Fin 100000) (i : Fin 32) (μ : Fin 3) :
    val_main_v20 (F := Ideal) x0 (ix3 n i μ) = vec (row x0 n) i μ := by
  have hn := n.isLt; have hi := i.isLt; have hμ := μ.isLt
  refine (val_main_v20_apply x0 (ix3 n i μ)).trans ?_
  refine (val_main_v19_apply x0 _).trans ?_
  unfold vec
  refine congrArg x0 (funext fun a => Fin.ext ?_)
  match a with
  | ⟨0, _⟩ => show ((n.val * 32 + i.val) * 3 + μ.val) / 96 = n.val; omega
  | ⟨1, _⟩ => show 128 + ((n.val * 32 + i.val) * 3 + μ.val) % 96 = 128 + (i.val * 3 + μ.val); omega

/-- The weight head's 512 channels, read as a 32 × 16 matrix: entry `(i, o)` is channel `16 i + o`. -/
theorem weights_read (x0 : (⟨S100000x224, .f32⟩ : BufTy).Contents (Elt Ideal)) (x4 : (⟨S128x256, .f32⟩ : BufTy).Contents (Elt Ideal))
    (x5 : (⟨S256x512, .f32⟩ : BufTy).Contents (Elt Ideal)) (n : Fin 100000) (i : Fin 32) (o : Fin 16) :
    val_main_v28 (F := Ideal) x0 x4 x5 (ix3 n i o)
      = perceptron (scalars (row x0 n)) x4 x5 ⟨i.val * 16 + o.val, by have := i.isLt; have := o.isLt; omega⟩ := by
  have hn := n.isLt; have hi := i.isLt; have ho := o.isLt
  refine (val_main_v28_apply x0 x4 x5 (ix3 n i o)).trans ?_
  have e : idx_main_v28 (ix3 n i o) = ix2 n (⟨i.val * 16 + o.val, by omega⟩ : Fin 512) := funext fun a => Fin.ext (by
    match a with
    | ⟨0, _⟩ => show ((n.val * 32 + i.val) * 16 + o.val) / 512 = n.val; omega
    | ⟨1, _⟩ => show ((n.val * 32 + i.val) * 16 + o.val) % 512 = i.val * 16 + o.val; omega)
  rw [e]
  exact weight_head_read x0 x4 x5 n _

/-- The contraction of the weight matrix with the node's vectors, scaled. -/
theorem contraction_read (x0 : (⟨S100000x224, .f32⟩ : BufTy).Contents (Elt Ideal)) (x4 : (⟨S128x256, .f32⟩ : BufTy).Contents (Elt Ideal))
    (x5 : (⟨S256x512, .f32⟩ : BufTy).Contents (Elt Ideal)) (n : Fin 100000) (o : Fin 16) (μ : Fin 3) :
    val_main_v31 (F := Ideal) x0 x4 x5 (ix3 n o μ) = contraction (row x0 n) x4 x5 o μ := by
  refine (val_main_v31_apply x0 x4 x5 (ix3 n o μ)).trans ?_
  rw [val_main_v29_apply, val_main_v30_apply, val_main_cst_6_apply]
  show (∑ k : Fin 32, val_main_v28 (F := Ideal) x0 x4 x5 (lidx_main_v29 (ix3 n o μ) k)
      * val_main_v20 (F := Ideal) x0 (ridx_main_v29 (ix3 n o μ) k)) * cMul = _
  unfold contraction
  congr 1
  refine Finset.sum_congr rfl fun k _ => ?_
  have el : lidx_main_v29 (ix3 n o μ) k = ix3 n k o :=
    funext fun a => match a with | ⟨0, _⟩ => rfl | ⟨1, _⟩ => rfl | ⟨2, _⟩ => rfl
  have er : ridx_main_v29 (ix3 n o μ) k = ix3 n k μ :=
    funext fun a => match a with | ⟨0, _⟩ => rfl | ⟨1, _⟩ => rfl | ⟨2, _⟩ => rfl
  rw [el, er, weights_read, vec_read]

/-- The 16 output vectors laid out as 48 columns: column `3 o + μ` is component `μ` of vector `o`. -/
theorem vectors_read (x0 : (⟨S100000x224, .f32⟩ : BufTy).Contents (Elt Ideal)) (x4 : (⟨S128x256, .f32⟩ : BufTy).Contents (Elt Ideal))
    (x5 : (⟨S256x512, .f32⟩ : BufTy).Contents (Elt Ideal)) (n : Fin 100000) (o : Fin 16) (μ : Fin 3) :
    val_main_v32 (F := Ideal) x0 x4 x5 (ix2 n (⟨o.val * 3 + μ.val, by have := o.isLt; have := μ.isLt; omega⟩ : Fin 48))
      = contraction (row x0 n) x4 x5 o μ := by
  have hn := n.isLt; have ho := o.isLt; have hμ := μ.isLt
  refine (val_main_v32_apply x0 x4 x5 _).trans ?_
  have e : idx_main_v32 (ix2 n (⟨o.val * 3 + μ.val, by omega⟩ : Fin 48)) = ix3 n o μ := funext fun a => Fin.ext (by
    match a with
    | ⟨0, _⟩ => show (n.val * 48 + (o.val * 3 + μ.val)) / 48 = n.val; omega
    | ⟨1, _⟩ => show (n.val * 48 + (o.val * 3 + μ.val)) / 3 % 16 = o.val; omega
    | ⟨2, _⟩ => show (n.val * 48 + (o.val * 3 + μ.val)) % 3 = μ.val; omega)
  rw [e]
  exact contraction_read x0 x4 x5 n o μ

/-- The joined outputs at one of the first 64 columns: the invariant head's scalar. -/
theorem joined_scalar (x0 : (⟨S100000x224, .f32⟩ : BufTy).Contents (Elt Ideal)) (x2 : (⟨S128x256, .f32⟩ : BufTy).Contents (Elt Ideal))
    (x3 : (⟨S256x64, .f32⟩ : BufTy).Contents (Elt Ideal)) (x4 : (⟨S128x256, .f32⟩ : BufTy).Contents (Elt Ideal))
    (x5 : (⟨S256x512, .f32⟩ : BufTy).Contents (Elt Ideal)) (n : Fin 100000) (o : Fin 64) :
    val_main_v33 (F := Ideal) x0 x2 x3 x4 x5 (ix2 n (⟨o.val, by have := o.isLt; omega⟩ : Fin 112))
      = perceptron (scalars (row x0 n)) x2 x3 o := by
  have h := invariant_head_read x0 x2 x3 n o
  unfold val_main_v33
  generalize val_main_v18 (F := Ideal) x0 x2 x3 = y₁ at h ⊢
  generalize val_main_v32 (F := Ideal) x0 x4 x5 = y₂
  exact (concatenate_pair_apply_left _ y₁ y₂ Gen.concatenates_S100000x64_S100000x48_S100000x112_d1 _ rfl (ix2 n o)
    (fun b => match b with | ⟨0, _⟩ => rfl | ⟨1, _⟩ => rfl)).trans h

/-- The joined outputs at column `64 + 3 o + μ`: component `μ` of output vector `o`. -/
theorem joined_vector (x0 : (⟨S100000x224, .f32⟩ : BufTy).Contents (Elt Ideal)) (x2 : (⟨S128x256, .f32⟩ : BufTy).Contents (Elt Ideal))
    (x3 : (⟨S256x64, .f32⟩ : BufTy).Contents (Elt Ideal)) (x4 : (⟨S128x256, .f32⟩ : BufTy).Contents (Elt Ideal))
    (x5 : (⟨S256x512, .f32⟩ : BufTy).Contents (Elt Ideal)) (n : Fin 100000) (o : Fin 16) (μ : Fin 3) :
    val_main_v33 (F := Ideal) x0 x2 x3 x4 x5
        (ix2 n (⟨64 + (o.val * 3 + μ.val), by have := o.isLt; have := μ.isLt; omega⟩ : Fin 112))
      = contraction (row x0 n) x4 x5 o μ := by
  have ho := o.isLt; have hμ := μ.isLt
  have h := vectors_read x0 x4 x5 n o μ
  unfold val_main_v33
  generalize val_main_v18 (F := Ideal) x0 x2 x3 = y₁
  generalize val_main_v32 (F := Ideal) x0 x4 x5 = y₂ at h ⊢
  exact (concatenate_pair_apply_right _ y₁ y₂ Gen.concatenates_S100000x64_S100000x48_S100000x112_d1 _ rfl rfl
    (ix2 n (⟨o.val * 3 + μ.val, by omega⟩ : Fin 48))
    (fun b => match b with
      | ⟨0, _⟩ => fun _ => rfl
      | ⟨1, _⟩ => fun hne => absurd rfl hne)
    (by show (o.val * 3 + μ.val) + 64 = 64 + (o.val * 3 + μ.val); omega)).trans h

/-- The mask: every column of row `n` carries the activity of node `n`. -/
theorem mask_read (x1 : (⟨S2x1600000, .i32⟩ : BufTy).Contents (Elt Ideal)) (n : Fin 100000) (c : Fin 112) :
    val_main_v36 (F := Ideal) x1 (ix2 n c) = activity x1 n := by
  have e : idx_main_v34 (idx_main_v36 (ix2 n c)) = ix1 n := funext fun a => match a with | ⟨0, _⟩ => rfl
  unfold activity
  rw [val_main_v36_apply, val_main_v35_apply, val_main_v34_apply, e]

/-- The reference at row `n`, column `c`. -/
theorem reference_at (x0 : (⟨S100000x224, .f32⟩ : BufTy).Contents (Elt Ideal)) (x1 : (⟨S2x1600000, .i32⟩ : BufTy).Contents (Elt Ideal))
    (x2 : (⟨S128x256, .f32⟩ : BufTy).Contents (Elt Ideal)) (x3 : (⟨S256x64, .f32⟩ : BufTy).Contents (Elt Ideal))
    (x4 : (⟨S128x256, .f32⟩ : BufTy).Contents (Elt Ideal)) (x5 : (⟨S256x512, .f32⟩ : BufTy).Contents (Elt Ideal))
    (n : Fin 100000) (c : Fin 112) :
    val_main_v37 (F := Ideal) x0 x1 x2 x3 x4 x5 (ix2 n c) = node (row x0 n) (activity x1 n) x2 x3 x4 x5 c := by
  refine (val_main_v37_apply x0 x1 x2 x3 x4 x5 (ix2 n c)).trans ?_
  show val_main_v33 (F := Ideal) x0 x2 x3 x4 x5 (ix2 n c) * val_main_v36 (F := Ideal) x1 (ix2 n c) = _
  rw [mask_read]
  rcases output_cases c with ⟨o, rfl⟩ | ⟨o, μ, rfl⟩
  · rw [node_scalar, joined_scalar]
  · rw [node_vector, joined_vector]

/-- The reference's result is the specification's, at every row and column. -/
theorem reference_eq (x0 : (⟨S100000x224, .f32⟩ : BufTy).Contents (Elt Ideal)) (x1 : (⟨S2x1600000, .i32⟩ : BufTy).Contents (Elt Ideal))
    (x2 : (⟨S128x256, .f32⟩ : BufTy).Contents (Elt Ideal)) (x3 : (⟨S256x64, .f32⟩ : BufTy).Contents (Elt Ideal))
    (x4 : (⟨S128x256, .f32⟩ : BufTy).Contents (Elt Ideal)) (x5 : (⟨S256x512, .f32⟩ : BufTy).Contents (Elt Ideal)) :
    val_main_v37 (F := Ideal) x0 x1 x2 x3 x4 x5 = result x0 (activity x1) x2 x3 x4 x5 := by
  funext i
  obtain ⟨n, c, rfl⟩ : ∃ (n : Fin 100000) (c : Fin 112), i = ix2 n c :=
    ⟨⟨(i 0).val, idx2_lt0 i⟩, ⟨(i 1).val, idx2_lt1 i⟩, funext fun a => match a with | ⟨0, _⟩ => rfl | ⟨1, _⟩ => rfl⟩
  rw [result_apply]
  exact reference_at x0 x1 x2 x3 x4 x5 n c
end Cert.ReferenceNode
end
-- ==== Proof.lean ====
/-
  The per-node readout of a graph network, tiled over the nodes, against the same readout written over the whole
  array: both end with the same result on the extended reals.

  Each of the 100000 nodes has 224 features (128 scalars and 32 three-vectors). Two fan-in-normalised two-layer
  perceptrons with SiLU read the scalars; one gives 64 output scalars, the other a 32 × 16 weight matrix that contracts
  the node's three-vectors to 16 output three-vectors; the 112 outputs are multiplied by the node's activity, 1 if
  some edge leaves the node and 0 otherwise (`NodeReadout.node`).

  The tiled program computes a block of 2000 rows per grid point; read at an index, its body is the node function of
  the block's row (`KernelNode`), and the blocks tile the array (`KernelArray`). The whole-array program is the node
  function of each row, operation by operation (`ReferenceNode`). The matrix products are the same finite sums on both
  sides, SiLU's `1/(1 + e^(-z))` is one function whether taken in one step or as negate, exponential, add and divide,
  the scales are the same words, and the activity is the same scatter of the same indices; no step needs the inputs
  finite. The ideal pass rewrote nothing, so that claim is trivial; the three runs' frames are the generated ones.
-/
import proofs.«145118_j72292889526462_1_alg».proof.Defs
import proofs.«145118_j72292889526462_1_alg».proof.Proof.Gen.Kernel
import proofs.«145118_j72292889526462_1_alg».proof.Proof.Gen.Kernel.Frame
import proofs.«145118_j72292889526462_1_alg».proof.Proof.Gen.KernelIdeal
import proofs.«145118_j72292889526462_1_alg».proof.Proof.Gen.KernelIdeal.Frame
import proofs.«145118_j72292889526462_1_alg».proof.Proof.Gen.ReferenceIdeal
import proofs.«145118_j72292889526462_1_alg».proof.Proof.Gen.Pre_finite_inputs
import proofs.«145118_j72292889526462_1_alg».proof.Proof.Gen.ReferenceIdeal.Run
import proofs.«145118_j72292889526462_1_alg».proof.Proof.Gen.ReferenceIdeal.Read
import proofs.«145118_j72292889526462_1_alg».proof.Proof.NodeReadout
import proofs.«145118_j72292889526462_1_alg».proof.Proof.KernelArray
import proofs.«145118_j72292889526462_1_alg».proof.Proof.ReferenceNode
import Idealize.ShloMosaic.Adequacy
import Idealize.ShloMosaic.Init

noncomputable section

namespace Cert.Proof

open Idealize.ShloMosaic Idealize.ShloMosaic.TcCoe Idealize.SL.Sem Idealize.ShloMosaic.ValueIdx

/-- The source bits are one function in the two programs: the same scatter of the same index arithmetic. -/
theorem sourceBits_eq (x1 : IVec Cert.KernelIdeal.S2x1600000 32) :
    Cert.ReferenceIdeal.Read.val_main_v10 (F := Ideal) x1 = Cert.KernelArray.sourceBits x1 := rfl

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the node function of the argument arrays in the result, row by row: the kernel's blocks tile it, the
    reference computes it in one piece; the activity is the converted source bit on both sides. -/
theorem algebraic : Cert.algebraic_KernelIdeal_ReferenceIdeal := by
  intro m ρ m' ρ' _ hagree
  refine ⟨_, Cert.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.ReferenceNode.reference_eq,
    (hagree c).1, (hagree c).2.1, (hagree c).2.2.1, (hagree c).2.2.2.1, (hagree c).2.2.2.2.1, (hagree c).2.2.2.2.2]
  exact congrArg (fun a => Cert.NodeReadout.result _ a _ _ _ _)
    (funext fun n => congrArg (FloatOps.uitofp (F := Ideal) .f32) (congrFun (sourceBits_eq _) (ix1 n)))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof
end
